-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100000x1 : S_.BroadcastsInDim S26x100000x1 (![] : Fin 0 → Fin S26x100000x1.rank)
  reducesTo_S26x100000x1_S_d0_1_2 : S26x100000x1.ReducesTo [0, 1, 2] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S13x1 : S_.BroadcastsInDim S13x1 (![] : Fin 0 → Fin S13x1.rank)
  reducesTo_S13x1_S_d0_1 : S13x1.ReducesTo [0, 1] S_
  bcast_S_S1 : S_.BroadcastsInDim S1 (![] : Fin 0 → Fin S1.rank)
  reducesTo_S1_S_d0 : S1.ReducesTo [0] S_
  bcast_S_S429x400 : S_.BroadcastsInDim S429x400 (![] : Fin 0 → Fin S429x400.rank)
  reducesTo_S429x400_S_d0_1 : S429x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S400x1 : S_.BroadcastsInDim S400x1 (![] : Fin 0 → Fin S400x1.rank)
  reducesTo_S400x1_S_d0_1 : S400x1.ReducesTo [0, 1] S_

variable [Facts]

def fn_part3 {F : FTy → Type} [FloatOps F] (main_arg12 : FVec F S400x1 .f32) (main_v48 : IVec S_ 1) (main_v49 : FVec F S400 .f32) (main_v50 : FVec F S400 .f32) : IVec S_ 1 :=
  let main_v51 : IVec S400 1 := cmpf .olt main_v49 main_v50
  let main_c_19 : IVec S_ 1 := constantI S_ 1 1#1
  let main_v52 : IVec S_ 1 := (fun x v => Host.reduce IntOp.andi x v reducesTo_S400_S_d0 h_S_) main_v51 main_c_19
  let main_v53 : IVec S_ 1 := andi main_v48 main_v52
  let main_v54 : FVec F S400x1 .f32 := Host.absf main_arg12
  let main_cst_20 : FVec F S_ .f32 := constant S_ .f32 0x7F800000#32
  let main_v55 : FVec F S400x1 .f32 := broadcastInDim S400x1 ![] bcast_S_S400x1 main_cst_20
  let main_v56 : IVec S400x1 1 := cmpf .olt main_v54 main_v55
  let main_c_21 : IVec S_ 1 := constantI S_ 1 1#1
  let main_v57 : IVec S_ 1 := (fun x v => Host.reduce IntOp.andi x v reducesTo_S400x1_S_d0_1 h_S_) main_v56 main_c_21
  let main_v58 : IVec S_ 1 := andi main_v53 main_v57
  main_v58

def fn_part2 {F : FTy → Type} [FloatOps F] (main_arg8 : FVec F S400x400 .f32) (main_arg9 : FVec F S400 .f32) (main_arg10 : FVec F S400x400 .f32) (main_arg11 : FVec F S400 .f32) (main_arg12 : FVec F S400x1 .f32) (main_v33 : IVec S_ 1) : IVec S_ 1 :=
  let main_v34 : FVec F S400x400 .f32 := Host.absf main_arg8
  let main_cst_12 : FVec F S_ .f32 := constant S_ .f32 0x7F800000#32
  let main_v35 : FVec F S400x400 .f32 := broadcastInDim S400x400 ![] bcast_S_S400x400 main_cst_12
  let main_v36 : IVec S400x400 1 := cmpf .olt main_v34 main_v35
  let main_c_13 : IVec S_ 1 := constantI S_ 1 1#1
  let main_v37 : IVec S_ 1 := (fun x v => Host.reduce IntOp.andi x v reducesTo_S400x400_S_d0_1 h_S_) main_v36 main_c_13
  let main_v38 : IVec S_ 1 := andi main_v33 main_v37
  let main_v39 : FVec F S400 .f32 := Host.absf main_arg9
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S400x400 .f32 := Host.absf main_arg10
  let main_cst_16 : FVec F S_ .f32 := constant S_ .f32 0x7F800000#32
  let main_v45 : FVec F S400x400 .f32 := broadcastInDim S400x400 ![] bcast_S_S400x400 main_cst_16
  let main_v46 : IVec S400x400 1 := cmpf .olt main_v44 main_v45
  let main_c_17 : IVec S_ 1 := constantI S_ 1 1#1
  let main_v47 : IVec S_ 1 := (fun x v => Host.reduce IntOp.andi x v reducesTo_S400x400_S_d0_1 h_S_) main_v46 main_c_17
  let main_v48 : IVec S_ 1 := andi main_v43 main_v47
  let main_v49 : FVec F S400 .f32 := Host.absf main_arg11
  let main_cst_18 : FVec F S_ .f32 := constant S_ .f32 0x7F800000#32
  let main_v50 : FVec F S400 .f32 := broadcastInDim S400 ![] bcast_S_S400 main_cst_18
  fn_part3 (F := F) main_arg12 main_v48 main_v49 main_v50

def fn_part1 {F : FTy → Type} [FloatOps F] (main_arg5 : FVec F S1 .f32) (main_arg6 : FVec F S429x400 .f32) (main_arg7 : FVec F S400 .f32) (main_arg8 : FVec F S400x400 .f32) (main_arg9 : FVec F S400 .f32) (main_arg10 : FVec F S400x400 .f32) (main_arg11 : FVec F S400 .f32) (main_arg12 : FVec F S400x1 .f32) (main_v13 : IVec S_ 1) (main_v16 : IVec S13x1 1) : IVec S_ 1 :=
  let main_c_5 : IVec S_ 1 := constantI S_ 1 1#1
  let main_v17 : IVec S_ 1 := (fun x v => Host.reduce IntOp.andi x v reducesTo_S13x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S429x400 .f32 := Host.absf main_arg6
  let main_cst_8 : FVec F S_ .f32 := constant S_ .f32 0x7F800000#32
  let main_v25 : FVec F S429x400 .f32 := broadcastInDim S429x400 ![] bcast_S_S429x400 main_cst_8
  let main_v26 : IVec S429x400 1 := cmpf .olt main_v24 main_v25
  let main_c_9 : IVec S_ 1 := constantI S_ 1 1#1
  let main_v27 : IVec S_ 1 := (fun x v => Host.reduce IntOp.andi x v reducesTo_S429x400_S_d0_1 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S16384x26 32) (main_arg1 : FVec F S16384x13 .f32) (main_arg2 : FVec F S26x100000x1 .f32) (main_arg3 : FVec F S26x100000x16 .f32) (main_arg4 : FVec F S13x1 .f32) (main_arg5 : FVec F S1 .f32) (main_arg6 : FVec F S429x400 .f32) (main_arg7 : FVec F S400 .f32) (main_arg8 : FVec F S400x400 .f32) (main_arg9 : FVec F S400 .f32) (main_arg10 : FVec F S400x400 .f32) (main_arg11 : FVec F S400 .f32) (main_arg12 : FVec F S400x1 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100000x1 .f32 := Host.absf main_arg2
  let main_cst_0 : FVec F S_ .f32 := constant S_ .f32 0x7F800000#32
  let main_v5 : FVec F S26x100000x1 .f32 := broadcastInDim S26x100000x1 ![] bcast_S_S26x100000x1 main_cst_0
  let main_v6 : IVec S26x100000x1 1 := cmpf .olt main_v4 main_v5
  let main_c_1 : IVec S_ 1 := constantI S_ 1 1#1
  let main_v7 : IVec S_ 1 := (fun x v => Host.reduce IntOp.andi x v reducesTo_S26x100000x1_S_d0_1_2 h_S_) main_v6 main_c_1
  let main_v8 : IVec S_ 1 := andi main_v3 main_v7
  let main_v9 : FVec F S26x100000x16 .f32 := Host.absf main_arg3
  let main_cst_2 : FVec F S_ .f32 := constant S_ .f32 0x7F800000#32
  let main_v10 : FVec F S26x100000x16 .f32 := broadcastInDim S26x100000x16 ![] bcast_S_S26x100000x16 main_cst_2
  let main_v11 : IVec S26x100000x16 1 := cmpf .olt main_v9 main_v10
  let main_c_3 : IVec S_ 1 := constantI S_ 1 1#1
  let main_v12 : IVec S_ 1 := (fun x v => Host.reduce IntOp.andi x v reducesTo_S26x100000x16_S_d0_1_2 h_S_) main_v11 main_c_3
  let main_v13 : IVec S_ 1 := andi main_v8 main_v12
  let main_v14 : FVec F S13x1 .f32 := Host.absf main_arg4
  let main_cst_4 : FVec F S_ .f32 := constant S_ .f32 0x7F800000#32
  let main_v15 : FVec F S13x1 .f32 := broadcastInDim S13x1 ![] bcast_S_S13x1 main_cst_4
  let main_v16 : IVec S13x1 1 := cmpf .olt main_v14 main_v15
  fn_part1 (F := F) main_arg5 main_arg6 main_arg7 main_arg8 main_arg9 main_arg10 main_arg11 main_arg12 main_v13 main_v16
-- ==== Kernel.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x3 : Shape := ⟨3, ![16384, 26, 3]⟩
abbrev S16384 : Shape := ⟨1, ![16384]⟩
abbrev S16384x1 : Shape := ⟨2, ![16384, 1]⟩
abbrev S16384x26x2 : Shape := ⟨3, ![16384, 26, 2]⟩
abbrev S16384x26x16 : Shape := ⟨3, ![16384, 26, 16]⟩
abbrev S16384x416 : Shape := ⟨2, ![16384, 416]⟩
abbrev S16384x429 : Shape := ⟨2, ![16384, 429]⟩
abbrev S1024x26x16 : Shape := ⟨3, ![1024, 26, 16]⟩
abbrev S1024x429 : Shape := ⟨2, ![1024, 429]⟩
abbrev S1024x13 : Shape := ⟨2, ![1024, 13]⟩
abbrev S1024x1 : Shape := ⟨2, ![1024, 1]⟩
abbrev S1024x16 : Shape := ⟨2, ![1024, 16]⟩
abbrev S1024 : Shape := ⟨1, ![1024]⟩
abbrev S1024x400 : Shape := ⟨2, ![1024, 400]⟩
abbrev S1x400 : Shape := ⟨2, ![1, 400]⟩
abbrev S13 : Shape := ⟨1, ![13]⟩
abbrev S1x13 : Shape := ⟨2, ![1, 13]⟩
abbrev S1x1 : Shape := ⟨2, ![1, 1]⟩

abbrev nBuf : Space → Nat
  | .hbm => 68
  | .vmem => 19
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x1, .f32⟩
  | .hbm, ⟨3, _⟩ => ⟨S26x100000x16, .f32⟩
  | .hbm, ⟨4, _⟩ => ⟨S13x1, .f32⟩
  | .hbm, ⟨5, _⟩ => ⟨S1, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S400x400, .f32⟩
  | .hbm, ⟨11, _⟩ => ⟨S400, .f32⟩
  | .hbm, ⟨12, _⟩ => ⟨S400x1, .f32⟩
  | .hbm, ⟨13, _⟩ => ⟨S26, .i32⟩
  | .hbm, ⟨14, _⟩ => ⟨S1x26, .i32⟩
  | .hbm, ⟨15, _⟩ => ⟨S_, .i32⟩
  | .hbm, ⟨16, _⟩ => ⟨S1x26, .i32⟩
  | .hbm, ⟨17, _⟩ => ⟨S1x26, .i1⟩
  | .hbm, ⟨18, _⟩ => ⟨S_, .i32⟩
  | .hbm, ⟨19, _⟩ => ⟨S1x26, .i32⟩
  | .hbm, ⟨20, _⟩ => ⟨S1x26, .i32⟩
  | .hbm, ⟨21, _⟩ => ⟨S1x26, .i32⟩
  | .hbm, ⟨22, _⟩ => ⟨S_, .i32⟩
  | .hbm, ⟨23, _⟩ => ⟨S16384x26, .i32⟩
  | .hbm, ⟨24, _⟩ => ⟨S16384x26, .i1⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S_, .i32⟩
  | .hbm, ⟨31, _⟩ => ⟨S16384x26, .i32⟩
  | .hbm, ⟨32, _⟩ => ⟨S16384x26, .i32⟩
  | .hbm, ⟨33, _⟩ => ⟨S16384x26x1, .i32⟩
  | .hbm, ⟨34, _⟩ => ⟨S16384x26x1, .i32⟩
  | .hbm, ⟨35, _⟩ => ⟨S16384x26x1, .i32⟩
  | .hbm, ⟨36, _⟩ => ⟨S16384x26x3, .i32⟩
  | .hbm, ⟨37, _⟩ => ⟨S16384x26, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .i32⟩
  | .hbm, ⟨42, _⟩ => ⟨S1x26, .i32⟩
  | .hbm, ⟨43, _⟩ => ⟨S1x26, .i1⟩
  | .hbm, ⟨44, _⟩ => ⟨S_, .i32⟩
  | .hbm, ⟨45, _⟩ => ⟨S1x26, .i32⟩
  | .hbm, ⟨46, _⟩ => ⟨S1x26, .i32⟩
  | .hbm, ⟨47, _⟩ => ⟨S1x26, .i32⟩
  | .hbm, ⟨48, _⟩ => ⟨S_, .i32⟩
  | .hbm, ⟨49, _⟩ => ⟨S16384x26, .i32⟩
  | .hbm, ⟨50, _⟩ => ⟨S16384x26, .i1⟩
  | .hbm, ⟨51, _⟩ => ⟨S_, .i32⟩
  | .hbm, ⟨52, _⟩ => ⟨S16384x26, .i32⟩
  | .hbm, ⟨53, _⟩ => ⟨S16384x26, .i32⟩
  | .hbm, ⟨54, _⟩ => ⟨S16384x26, .i32⟩
  | .hbm, ⟨55, _⟩ => ⟨S16384x26, .i32⟩
  | .hbm, ⟨56, _⟩ => ⟨S16384x26x1, .i32⟩
  | .hbm, ⟨57, _⟩ => ⟨S16384x26x1, .i32⟩
  | .hbm, ⟨58, _⟩ => ⟨S16384x26x2, .i32⟩
  | .hbm, ⟨59, _⟩ => ⟨S16384x26x16, .f32⟩
  | .hbm, ⟨60, _⟩ => ⟨S16384x416, .f32⟩
  | .hbm, ⟨61, _⟩ => ⟨S16384x429, .f32⟩
  | .hbm, ⟨62, _⟩ => ⟨S16384x429, .bf16⟩
  | .hbm, ⟨63, _⟩ => ⟨S429x400, .bf16⟩
  | .hbm, ⟨64, _⟩ => ⟨S400x400, .bf16⟩
  | .hbm, ⟨65, _⟩ => ⟨S400x400, .bf16⟩
  | .hbm, ⟨66, _⟩ => ⟨S400x1, .bf16⟩
  | .hbm, ⟨67, _⟩ => ⟨S16384x1, .f32⟩
  | .local _ .vmem, ⟨0, _⟩ => ⟨S1024x26x16, .f32⟩
  | .local _ .vmem, ⟨1, _⟩ => ⟨S1024x26x16, .f32⟩
  | .local _ .vmem, ⟨2, _⟩ => ⟨S1024x429, .bf16⟩
  | .local _ .vmem, ⟨3, _⟩ => ⟨S1024x429, .bf16⟩
  | .local _ .vmem, ⟨4, _⟩ => ⟨S1024x13, .f32⟩
  | .local _ .vmem, ⟨5, _⟩ => ⟨S1024x13, .f32⟩
  | .local _ .vmem, ⟨6, _⟩ => ⟨S1024x1, .f32⟩
  | .local _ .vmem, ⟨7, _⟩ => ⟨S1024x1, .f32⟩
  | .local _ .vmem, ⟨8, _⟩ => ⟨S13x1, .f32⟩
  | .local _ .vmem, ⟨9, _⟩ => ⟨S429x400, .bf16⟩
  | .local _ .vmem, ⟨10, _⟩ => ⟨S400, .f32⟩
  | .local _ .vmem, ⟨11, _⟩ => ⟨S400x400, .bf16⟩
  | .local _ .vmem, ⟨12, _⟩ => ⟨S400, .f32⟩
  | .local _ .vmem, ⟨13, _⟩ => ⟨S400x400, .bf16⟩
  | .local _ .vmem, ⟨14, _⟩ => ⟨S400, .f32⟩
  | .local _ .vmem, ⟨15, _⟩ => ⟨S400x1, .bf16⟩
  | .local _ .vmem, ⟨16, _⟩ => ⟨S1, .f32⟩
  | .local _ .vmem, ⟨17, _⟩ => ⟨S1024x1, .f32⟩
  | .local _ .vmem, ⟨18, _⟩ => ⟨S1024x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x26x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x429 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S13x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S429x400 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400x400 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x400 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S400x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x1_S16384x26x3_d2 : Shape.Concatenates [S16384x26x1, S16384x26x1, S16384x26x1] S16384x26x3 2
  reducesTo_S16384x26_S16384_d1 : S16384x26.ReducesTo [1] S16384
  h_S_ : 0 < S_.numel
  bcast_S16384_S16384x1_0 : S16384.BroadcastsInDim S16384x1 (![0] : Fin 1 → Fin S16384x1.rank)
  concatenates_S16384x26x1_S16384x26x1_S16384x26x2_d2 : Shape.Concatenates [S16384x26x1, S16384x26x1] S16384x26x2 2
  shapeCasts_S16384x26x16_S16384x416 : S16384x26x16.ShapeCasts S16384x416
  concatenates_S16384x416_S16384x13_S16384x429_d1 : Shape.Concatenates [S16384x416, S16384x13] S16384x429 1
  bitsLt_bf16_f32 : FTy.bits .bf16 < FTy.bits .f32
  inb_S1024x26x16_S1024x26x16_0_0_0 : ∀ a, (![0, 0, 0] : Fin 3 → Nat) a + S1024x26x16.size a ≤ S1024x26x16.size a
  h_S1024x26x16 : 0 < S1024x26x16.numel
  shapeCasts_S1024x26x16_S1024x26x16 : S1024x26x16.ShapeCasts S1024x26x16
  reduces_S1024x26x16_S1024x16 : S1024x26x16.Reduces [1] S1024x16
  reduces_S1024x16_S1024 : S1024x16.Reduces [1] S1024
  shapeCasts_S1024_S1024x1 : S1024.ShapeCasts S1024x1
  inb_S1024x429_S1024x429_0_0 : ∀ a, (![0, 0] : Fin 2 → Nat) a + S1024x429.size a ≤ S1024x429.size a
  h_S1024x429 : 0 < S1024x429.numel
  shapeCasts_S1024x429_S1024x429 : S1024x429.ShapeCasts S1024x429
  inb_S429x400_S429x400_0_0 : ∀ a, (![0, 0] : Fin 2 → Nat) a + S429x400.size a ≤ S429x400.size a
  h_S429x400 : 0 < S429x400.numel
  shapeCasts_S429x400_S429x400 : S429x400.ShapeCasts S429x400
  inb_S400_S400_0 : ∀ a, (![0] : Fin 1 → Nat) a + S400.size a ≤ S400.size a
  h_S400 : 0 < S400.numel
  shapeCasts_S400_S1x400 : S400.ShapeCasts S1x400
  broadcasts_S1x400_S1024x400 : S1x400.Broadcasts S1024x400
  inb_S400x400_S400x400_0_0 : ∀ a, (![0, 0] : Fin 2 → Nat) a + S400x400.size a ≤ S400x400.size a
  h_S400x400 : 0 < S400x400.numel
  shapeCasts_S400x400_S400x400 : S400x400.ShapeCasts S400x400
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S1024x13_S1024x13_0_0 : ∀ a, (![0, 0] : Fin 2 → Nat) a + S1024x13.size a ≤ S1024x13.size a
  h_S1024x13 : 0 < S1024x13.numel
  inb_S13x1_S13x1_0_0 : ∀ a, (![0, 0] : Fin 2 → Nat) a + S13x1.size a ≤ S13x1.size a
  h_S13x1 : 0 < S13x1.numel
  shapeCasts_S13x1_S13 : S13x1.ShapeCasts S13
  shapeCasts_S13_S1x13 : S13.ShapeCasts S1x13
  broadcasts_S1x13_S1024x13 : S1x13.Broadcasts S1024x13
  reduces_S1024x13_S1024 : S1024x13.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  gather_S26x100000x1_S16384x26x3_S16384x26_n_012_n_n_012_2_111_wf : GatherDims.WF S26x100000x1 S16384x26x3 S16384x26 [] [0, 1, 2] [] [0, 1, 2] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S1024x429_S429x400_S1024x400_1_0_0_1_n_n_wf : DotDims.WF S1024x429 S429x400 S1024x400 [1] [0] [0] [1] [] []
  dot_S1024x400_S400x400_S1024x400_1_0_0_1_n_n_wf : DotDims.WF S1024x400 S400x400 S1024x400 [1] [0] [0] [1] [] []
  dot_S1024x400_S400x1_S1024x1_1_0_0_1_n_n_wf : DotDims.WF S1024x400 S400x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x26x16.size a ≤ S16384x26x16.size a
  hwx0_0 : ∀ i : grid0.Coords, EltTy.bits .f32 = 32 ∨ (Rect.block (s := S16384x26x16) S1024x26x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x429.size a ≤ S16384x429.size a
  hwx0_1 : ∀ i : grid0.Coords, EltTy.bits .bf16 = 32 ∨ (Rect.block (s := S16384x429) S1024x429.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x13.size a ≤ S16384x13.size a
  hwx0_2 : ∀ i : grid0.Coords, EltTy.bits .f32 = 32 ∨ (Rect.block (s := S16384x13) S1024x13.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x1.size a ≤ S13x1.size a
  hwx0_4 : ∀ i : grid0.Coords, EltTy.bits .f32 = 32 ∨ (Rect.block (s := S13x1) S13x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S429x400.size a ≤ S429x400.size a
  hwx0_5 : ∀ i : grid0.Coords, EltTy.bits .bf16 = 32 ∨ (Rect.block (s := S429x400) S429x400.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S400.size a ≤ S400.size a
  hwx0_6 : ∀ i : grid0.Coords, EltTy.bits .f32 = 32 ∨ (Rect.block (s := S400) S400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400x400.size a ≤ S400x400.size a
  hwx0_7 : ∀ i : grid0.Coords, EltTy.bits .bf16 = 32 ∨ (Rect.block (s := S400x400) S400x400.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400.size a ≤ S400.size a
  hwx0_8 : ∀ i : grid0.Coords, EltTy.bits .f32 = 32 ∨ (Rect.block (s := S400) S400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x400.size a ≤ S400x400.size a
  hwx0_9 : ∀ i : grid0.Coords, EltTy.bits .bf16 = 32 ∨ (Rect.block (s := S400x400) S400x400.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S400.size a ≤ S400.size a
  hwx0_10 : ∀ i : grid0.Coords, EltTy.bits .f32 = 32 ∨ (Rect.block (s := S400) S400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S400x1.size a ≤ S400x1.size a
  hwx0_11 : ∀ i : grid0.Coords, EltTy.bits .bf16 = 32 ∨ (Rect.block (s := S400x1) S400x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x1.size a ≤ S16384x1.size a
  hwx0_13 : ∀ i : grid0.Coords, EltTy.bits .f32 = 32 ∨ (Rect.block (s := S16384x1) S1024x1.size (cc0_transform_13 i) (hinb0_13 i)).WholeWords (EltTy.packing .f32)

variable [Facts₀]

def gather_S26x100000x1_S16384x26x3_S16384x26_n_012_n_n_012_2_111 : GatherDims S26x100000x1 S16384x26x3 S16384x26 where
  offsetDims := []
  collapsedSliceDims := [0, 1, 2]
  operandBatchingDims := []
  startIndicesBatchingDims := []
  startIndexMap := [0, 1, 2]
  indexVectorDim := 2
  sliceSizes := ![1, 1, 1]
  wf := gather_S26x100000x1_S16384x26x3_S16384x26_n_012_n_n_012_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S1024x429_S429x400_S1024x400_1_0_0_1_n_n : DotDims S1024x429 S429x400 S1024x400 where
  lhsContracting := [1]
  rhsContracting := [0]
  lhsNonContracting := [0]
  rhsNonContracting := [1]
  lhsBatch := []
  rhsBatch := []
  wf := dot_S1024x429_S429x400_S1024x400_1_0_0_1_n_n_wf
def dot_S1024x400_S400x400_S1024x400_1_0_0_1_n_n : DotDims S1024x400 S400x400 S1024x400 where
  lhsContracting := [1]
  rhsContracting := [0]
  lhsNonContracting := [0]
  rhsNonContracting := [1]
  lhsBatch := []
  rhsBatch := []
  wf := dot_S1024x400_S400x400_S1024x400_1_0_0_1_n_n_wf
def dot_S1024x400_S400x1_S1024x1_1_0_0_1_n_n : DotDims S1024x400 S400x1 S1024x1 where
  lhsContracting := [1]
  rhsContracting := [0]
  lhsNonContracting := [0]
  rhsNonContracting := [1]
  lhsBatch := []
  rhsBatch := []
  wf := dot_S1024x400_S400x1_S1024x1_1_0_0_1_n_n_wf

abbrev win0_0 : Pipeline.Window sig grid0 :=
  Pipeline.Window.ofSpec (Memref.whole main_v36) S1024x26x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1024x429.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S13x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S429x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S400x400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S400x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S400x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg5) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v44) S1024x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x3 : Shape := ⟨3, ![16384, 26, 3]⟩
abbrev S16384 : Shape := ⟨1, ![16384]⟩
abbrev S16384x1 : Shape := ⟨2, ![16384, 1]⟩
abbrev S16384x26x2 : Shape := ⟨3, ![16384, 26, 2]⟩
abbrev S16384x26x16 : Shape := ⟨3, ![16384, 26, 16]⟩
abbrev S16384x16 : Shape := ⟨2, ![16384, 16]⟩
abbrev S16384x416 : Shape := ⟨2, ![16384, 416]⟩
abbrev S16384x429 : Shape := ⟨2, ![16384, 429]⟩
abbrev S16384x400 : Shape := ⟨2, ![16384, 400]⟩
abbrev S1x400 : Shape := ⟨2, ![1, 400]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x1, .f32⟩
  | .hbm, ⟨3, _⟩ => ⟨S26x100000x16, .f32⟩
  | .hbm, ⟨4, _⟩ => ⟨S13x1, .f32⟩
  | .hbm, ⟨5, _⟩ => ⟨S1, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S400x400, .f32⟩
  | .hbm, ⟨11, _⟩ => ⟨S400, .f32⟩
  | .hbm, ⟨12, _⟩ => ⟨S400x1, .f32⟩
  | .hbm, ⟨13, _⟩ => ⟨S26, .i32⟩
  | .hbm, ⟨14, _⟩ => ⟨S1x26, .i32⟩
  | .hbm, ⟨15, _⟩ => ⟨S_, .i32⟩
  | .hbm, ⟨16, _⟩ => ⟨S1x26, .i32⟩
  | .hbm, ⟨17, _⟩ => ⟨S1x26, .i1⟩
  | .hbm, ⟨18, _⟩ => ⟨S_, .i32⟩
  | .hbm, ⟨19, _⟩ => ⟨S1x26, .i32⟩
  | .hbm, ⟨20, _⟩ => ⟨S1x26, .i32⟩
  | .hbm, ⟨21, _⟩ => ⟨S1x26, .i32⟩
  | .hbm, ⟨22, _⟩ => ⟨S_, .i32⟩
  | .hbm, ⟨23, _⟩ => ⟨S16384x26, .i32⟩
  | .hbm, ⟨24, _⟩ => ⟨S16384x26, .i1⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S_, .i32⟩
  | .hbm, ⟨31, _⟩ => ⟨S16384x26, .i32⟩
  | .hbm, ⟨32, _⟩ => ⟨S16384x26, .i32⟩
  | .hbm, ⟨33, _⟩ => ⟨S16384x26x1, .i32⟩
  | .hbm, ⟨34, _⟩ => ⟨S16384x26x1, .i32⟩
  | .hbm, ⟨35, _⟩ => ⟨S16384x26x1, .i32⟩
  | .hbm, ⟨36, _⟩ => ⟨S16384x26x3, .i32⟩
  | .hbm, ⟨37, _⟩ => ⟨S16384x26, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S_, .i32⟩
  | .hbm, ⟨44, _⟩ => ⟨S1x26, .i32⟩
  | .hbm, ⟨45, _⟩ => ⟨S1x26, .i1⟩
  | .hbm, ⟨46, _⟩ => ⟨S_, .i32⟩
  | .hbm, ⟨47, _⟩ => ⟨S1x26, .i32⟩
  | .hbm, ⟨48, _⟩ => ⟨S1x26, .i32⟩
  | .hbm, ⟨49, _⟩ => ⟨S1x26, .i32⟩
  | .hbm, ⟨50, _⟩ => ⟨S_, .i32⟩
  | .hbm, ⟨51, _⟩ => ⟨S16384x26, .i32⟩
  | .hbm, ⟨52, _⟩ => ⟨S16384x26, .i1⟩
  | .hbm, ⟨53, _⟩ => ⟨S_, .i32⟩
  | .hbm, ⟨54, _⟩ => ⟨S16384x26, .i32⟩
  | .hbm, ⟨55, _⟩ => ⟨S16384x26, .i32⟩
  | .hbm, ⟨56, _⟩ => ⟨S16384x26, .i32⟩
  | .hbm, ⟨57, _⟩ => ⟨S16384x26, .i32⟩
  | .hbm, ⟨58, _⟩ => ⟨S16384x26x1, .i32⟩
  | .hbm, ⟨59, _⟩ => ⟨S16384x26x1, .i32⟩
  | .hbm, ⟨60, _⟩ => ⟨S16384x26x2, .i32⟩
  | .hbm, ⟨61, _⟩ => ⟨S16384x26x16, .f32⟩
  | .hbm, ⟨62, _⟩ => ⟨S_, .f32⟩
  | .hbm, ⟨63, _⟩ => ⟨S16384x16, .f32⟩
  | .hbm, ⟨64, _⟩ => ⟨S16384x16, .f32⟩
  | .hbm, ⟨65, _⟩ => ⟨S16384x26x16, .f32⟩
  | .hbm, ⟨66, _⟩ => ⟨S_, .f32⟩
  | .hbm, ⟨67, _⟩ => ⟨S16384x16, .f32⟩
  | .hbm, ⟨68, _⟩ => ⟨S16384x16, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x416, .f32⟩
  | .hbm, ⟨77, _⟩ => ⟨S16384x429, .f32⟩
  | .hbm, ⟨78, _⟩ => ⟨S16384x400, .f32⟩
  | .hbm, ⟨79, _⟩ => ⟨S1x400, .f32⟩
  | .hbm, ⟨80, _⟩ => ⟨S16384x400, .f32⟩
  | .hbm, ⟨81, _⟩ => ⟨S16384x400, .f32⟩
  | .hbm, ⟨82, _⟩ => ⟨S_, .f32⟩
  | .hbm, ⟨83, _⟩ => ⟨S16384x400, .f32⟩
  | .hbm, ⟨84, _⟩ => ⟨S16384x400, .f32⟩
  | .hbm, ⟨85, _⟩ => ⟨S16384x400, .f32⟩
  | .hbm, ⟨86, _⟩ => ⟨S1x400, .f32⟩
  | .hbm, ⟨87, _⟩ => ⟨S16384x400, .f32⟩
  | .hbm, ⟨88, _⟩ => ⟨S16384x400, .f32⟩
  | .hbm, ⟨89, _⟩ => ⟨S_, .f32⟩
  | .hbm, ⟨90, _⟩ => ⟨S16384x400, .f32⟩
  | .hbm, ⟨91, _⟩ => ⟨S16384x400, .f32⟩
  | .hbm, ⟨92, _⟩ => ⟨S16384x400, .f32⟩
  | .hbm, ⟨93, _⟩ => ⟨S1x400, .f32⟩
  | .hbm, ⟨94, _⟩ => ⟨S16384x400, .f32⟩
  | .hbm, ⟨95, _⟩ => ⟨S16384x400, .f32⟩
  | .hbm, ⟨96, _⟩ => ⟨S_, .f32⟩
  | .hbm, ⟨97, _⟩ => ⟨S16384x400, .f32⟩
  | .hbm, ⟨98, _⟩ => ⟨S16384x400, .f32⟩
  | .hbm, ⟨99, _⟩ => ⟨S16384x1, .f32⟩
  | .hbm, ⟨100, _⟩ => ⟨S16384x1, .f32⟩
  | .hbm, ⟨101, _⟩ => ⟨S1x1, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call0_cst : Ref sig .tc := ⟨.hbm, 82, rfl⟩
abbrev main_call0_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call1_cst : Ref sig .tc := ⟨.hbm, 89, rfl⟩
abbrev main_call1_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_12 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x1_S16384x26x3_d2 : Shape.Concatenates [S16384x26x1, S16384x26x1, S16384x26x1] S16384x26x3 2
  reducesTo_S16384x26_S16384_d1 : S16384x26.ReducesTo [1] S16384
  h_S_ : 0 < S_.numel
  bcast_S16384_S16384x1_0 : S16384.BroadcastsInDim S16384x1 (![0] : Fin 1 → Fin S16384x1.rank)
  concatenates_S16384x26x1_S16384x26x1_S16384x26x2_d2 : Shape.Concatenates [S16384x26x1, S16384x26x1] S16384x26x2 2
  reducesTo_S16384x26x16_S16384x16_d1 : S16384x26x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x26x16_S16384x416 : S16384x26x16.ShapeCasts S16384x416
  concatenates_S16384x416_S16384x13_S16384x429_d1 : Shape.Concatenates [S16384x416, S16384x13] S16384x429 1
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S26x100000x1_S16384x26x3_S16384x26_n_012_n_n_012_2_111_wf : GatherDims.WF S26x100000x1 S16384x26x3 S16384x26 [] [0, 1, 2] [] [0, 1, 2] [] 2 ![1, 1, 1]
  dot_S16384x13_S13x1_S16384x1_1_0_0_1_n_n_wf : DotDims.WF S16384x13 S13x1 S16384x1 [1] [0] [0] [1] [] []
  gather_S26x100000x16_S16384x26x2_S16384x26x16_2_01_n_n_01_2_1116_wf : GatherDims.WF S26x100000x16 S16384x26x2 S16384x26x16 [2] [0, 1] [] [0, 1] [] 2 ![1, 1, 16]
  dot_S16384x429_S429x400_S16384x400_1_0_0_1_n_n_wf : DotDims.WF S16384x429 S429x400 S16384x400 [1] [0] [0] [1] [] []
  dot_S16384x400_S400x400_S16384x400_1_0_0_1_n_n_wf : DotDims.WF S16384x400 S400x400 S16384x400 [1] [0] [0] [1] [] []
  dot_S16384x400_S400x1_S16384x1_1_0_0_1_n_n_wf : DotDims.WF S16384x400 S400x1 S16384x1 [1] [0] [0] [1] [] []

variable [Facts₀]

def gather_S26x100000x1_S16384x26x3_S16384x26_n_012_n_n_012_2_111 : GatherDims S26x100000x1 S16384x26x3 S16384x26 where
  offsetDims := []
  collapsedSliceDims := [0, 1, 2]
  operandBatchingDims := []
  startIndicesBatchingDims := []
  startIndexMap := [0, 1, 2]
  indexVectorDim := 2
  sliceSizes := ![1, 1, 1]
  wf := gather_S26x100000x1_S16384x26x3_S16384x26_n_012_n_n_012_2_111_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x429_S429x400_S16384x400_1_0_0_1_n_n : DotDims S16384x429 S429x400 S16384x400 where
  lhsContracting := [1]
  rhsContracting := [0]
  lhsNonContracting := [0]
  rhsNonContracting := [1]
  lhsBatch := []
  rhsBatch := []
  wf := dot_S16384x429_S429x400_S16384x400_1_0_0_1_n_n_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf
def dot_S16384x400_S400x1_S16384x1_1_0_0_1_n_n : DotDims S16384x400 S400x1 S16384x1 where
  lhsContracting := [1]
  rhsContracting := [0]
  lhsNonContracting := [0]
  rhsNonContracting := [1]
  lhsBatch := []
  rhsBatch := []
  wf := dot_S16384x400_S400x1_S16384x1_1_0_0_1_n_n_wf

class Facts : Prop extends Facts₀ where

variable [Facts]
-- ==== Proof.WholeKernel.lean ====
/-
  The frame of the program: it runs to the end, faults nowhere, and leaves its argument arrays as they were; and what
  the call's result array holds afterwards.

  The program is a line of host operations (index arithmetic, two gathers, a row sum, a reshape, a concatenation and
  five changes of float format), then ONE call over a grid of 16 points, point `t` working on rows
  1024·t … 1024·t + 1023 of the batch.  At each point the body reads thirteen blocks whole — the rows' embeddings, their
  429-wide layout, the dense features, the first-order sums, and the weights, which are the same block at every point —
  and stores one 1024 × 1 block, computed from those thirteen by the body's arithmetic, over the whole of its output
  block (it also loads that block first and discards what it read).  So after the body the output block is a function
  `outBlock` of the thirteen input blocks alone, every input block is unchanged, and nothing else is touched: that is
  all the launch theorem asks of a body, and it returns the run with every array of the call named.  No host
  operation writes an argument array, so each argument is found at the call, and left after it, as it was launched.
-/
import proofs.«147846_j2156073583145_2_alg».proof.Proof.Gen.Kernel.Launch
import proofs.«147846_j2156073583145_2_alg».proof.Proof.Gen.Kernel.Skeleton
import proofs.«147846_j2156073583145_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core `c`'s buffers when the call is entered: the launch contents after the host operations before it. -/
abbrev V (c : Dev nD) (b : Ref sig .tc) : Buf (Elt F) ((c : Thread nD τ).loc b) :=
  StableHlo.after (List.flatten [hostOps0]) (fun b => m (c, b)) b

/-- No host operation allocates anything. -/
theorem hostOps0_fresh : (hostOps0 : List (HloOp τ sig (Elt F))).Forall fun op => op.fresh = ∅ := by
  simp only [List.Forall]; repeat' constructor

/-- The program is its host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every point, whether the point fetches it or its index has not moved
    since the point that did: for any proof data over the arrays `V` whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run, from the run's description of every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 12).trans (((dats 0 c).arrAt_in 12 rfl _).trans ((hA c 12).trans (V_main_arg5 m c))),
      ((h c).2 main_arg6 (Pipeline.mem_restRefs_of main_arg6 (by decide) (by decide))).trans (V_main_arg6 m c),
      ((h c).1 6).trans (((dats 0 c).arrAt_in 6 rfl _).trans ((hA c 6).trans (V_main_arg7 m c))),
      ((h c).2 main_arg8 (Pipeline.mem_restRefs_of main_arg8 (by decide) (by decide))).trans (V_main_arg8 m c),
      ((h c).1 8).trans (((dats 0 c).arrAt_in 8 rfl _).trans ((hA c 8).trans (V_main_arg9 m c))),
      ((h c).2 main_arg10 (Pipeline.mem_restRefs_of main_arg10 (by decide) (by decide))).trans (V_main_arg10 m c),
      ((h c).1 10).trans (((dats 0 c).arrAt_in 10 rfl _).trans ((hA c 10).trans (V_main_arg11 m c))),
      ((h c).2 main_arg12 (Pipeline.mem_restRefs_of main_arg12 (by decide) (by decide))).trans (V_main_arg12 m c)⟩) h

/-! ## What the body leaves in the output block -/

/-- The output block after the body, from the thirteen input blocks: its one store, of the body's arithmetic applied
    to the blocks read whole, over the whole block. -/
def outBlock (x0 : Vec F S1024x26x16 .f32) (x1 : Vec F S1024x429 .bf16) (x2 : Vec F S1024x13 .f32) (x3 : Vec F S1024x1 .f32) (x4 : Vec F S13x1 .f32) (x5 : Vec F S429x400 .bf16) (x6 : Vec F S400 .f32) (x7 : Vec F S400x400 .bf16) (x8 : Vec F S400 .f32) (x9 : Vec F S400x400 .bf16) (x10 : Vec F S400 .f32) (x11 : Vec F S400x1 .bf16) (x12 : Vec F S1 .f32) : Vec F S1024x1 .f32 :=
  View.canon [⟨(Rect.unit (s := S1024x1) ![0, 0] S1024x1.size inb_S1024x1_S1024x1_0_0), k0_pay1 (k0_pay2 (View.ld x0 (Rect.unit (s := S1024x26x16) ![0, 0, 0] S1024x26x16.size inb_S1024x26x16_S1024x26x16_0_0_0))) (k0_pay3 (View.ld x1 (Rect.unit (s := S1024x429) ![0, 0] S1024x429.size inb_S1024x429_S1024x429_0_0)) (View.ld x5 (Rect.unit (s := S429x400) ![0, 0] S429x400.size inb_S429x400_S429x400_0_0)) (View.ld x6 (Rect.unit (s := S400) ![0] S400.size inb_S400_S400_0)) (View.ld x7 (Rect.unit (s := S400x400) ![0, 0] S400x400.size inb_S400x400_S400x400_0_0)) (View.ld x8 (Rect.unit (s := S400) ![0] S400.size inb_S400_S400_0)) (View.ld x9 (Rect.unit (s := S400x400) ![0, 0] S400x400.size inb_S400x400_S400x400_0_0))) (View.ld x10 (Rect.unit (s := S400) ![0] S400.size inb_S400_S400_0)) (View.ld x11 (Rect.unit (s := S400x1) ![0, 0] S400x1.size inb_S400x1_S400x1_0_0)) (View.ld x2 (Rect.unit (s := S1024x13) ![0, 0] S1024x13.size inb_S1024x13_S1024x13_0_0)) (View.ld x4 (Rect.unit (s := S13x1) ![0, 0] S13x1.size inb_S13x1_S13x1_0_0)) (View.ld x3 (Rect.unit (s := S1024x1) ![0, 0] S1024x1.size inb_S1024x1_S1024x1_0_0)) (View.ld x12 (Rect.unit (s := S1) ![0] S1.size inb_S1_S1_0))⟩]

/-- The one store covers the block. -/
theorem cover_out (p0 : Vec F S1024x1 .f32) (y : S1024x1.Idx) :
    ∃ pc ∈ ([⟨(Rect.unit (s := S1024x1) ![0, 0] S1024x1.size inb_S1024x1_S1024x1_0_0), p0⟩] : List (View.Piece (Elt F) S1024x1 .f32)), y ∈ pc.1.set :=
  View.cover_of_tiled [⟨(Rect.unit (s := S1024x1) ![0, 0] S1024x1.size inb_S1024x1_S1024x1_0_0), p0⟩] S1024x1.size (by rfl) y

/-! ## The body's triple -/

set_option maxHeartbeats 4000000 in
/-- The body on whole staging buffers, the inputs' at contents `xW` and the output's at anything, runs to the
    continuation holding the inputs' as they were and the output's at `outBlock` of them. -/
theorem sound_kernel (c : Dev nD) (E : Set ℕ) (i : grid0.Coords) (arg1 : Memref sig .tc .vmem S1024x26x16 .f32) (harg1 : arg1.IsWhole) (arg2 : Memref sig .tc .vmem S1024x429 .bf16) (harg2 : arg2.IsWhole) (arg3 : Memref sig .tc .vmem S1024x13 .f32) (harg3 : arg3.IsWhole) (arg4 : Memref sig .tc .vmem S1024x1 .f32) (harg4 : arg4.IsWhole) (arg5 : Memref sig .tc .vmem S13x1 .f32) (harg5 : arg5.IsWhole) (arg6 : Memref sig .tc .vmem S429x400 .bf16) (harg6 : arg6.IsWhole) (arg7 : Memref sig .tc .vmem S400 .f32) (harg7 : arg7.IsWhole) (arg8 : Memref sig .tc .vmem S400x400 .bf16) (harg8 : arg8.IsWhole) (arg9 : Memref sig .tc .vmem S400 .f32) (harg9 : arg9.IsWhole) (arg10 : Memref sig .tc .vmem S400x400 .bf16) (harg10 : arg10.IsWhole) (arg11 : Memref sig .tc .vmem S400 .f32) (harg11 : arg11.IsWhole) (arg12 : Memref sig .tc .vmem S400x1 .bf16) (harg12 : arg12.IsWhole) (arg13 : Memref sig .tc .vmem S1 .f32) (harg13 : arg13.IsWhole) (arg14 : Memref sig .tc .vmem S1024x1 .f32) (harg14 : arg14.IsWhole)
    (x0 : Vec F S1024x26x16 .f32) (x1 : Vec F S1024x429 .bf16) (x2 : Vec F S1024x13 .f32) (x3 : Vec F S1024x1 .f32) (x4 : Vec F S13x1 .f32) (x5 : Vec F S429x400 .bf16) (x6 : Vec F S400 .f32) (x7 : Vec F S400x400 .bf16) (x8 : Vec F S400 .f32) (x9 : Vec F S400x400 .bf16) (x10 : Vec F S400 .f32) (x11 : Vec F S400x1 .bf16) (x12 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outBlock x0 x1 x2 x3 x4 x5 x6 x7 x8 x9 x10 x11 x12)) -∗ K ⟨⟩))
      ⊢ wp frame (wpE (defs₀ (F := F)) Variants.none c none) E (cc0__dnn_fm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dnn_fm_kernel_eq_skeleton]; unfold cc0__dnn_fm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover_out _)

/-! ## The proof data of the call -/

/-- The arrays as the call finds them; after the body at point `t` each input's buffer at its block and the output's
    at `outBlock` of the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the call at what the proof data says and every other buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its thirteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Whole

end
-- ==== Proof.WholeKernelIdeal.lean ====
/-
  The frame of the program: it runs to the end, faults nowhere, and leaves its argument arrays as they were; and what
  the call's result array holds afterwards.

  The program is a line of host operations (index arithmetic, two gathers, a row sum, a reshape, a concatenation and
  five changes of float format), then ONE call over a grid of 16 points, point `t` working on rows
  1024·t … 1024·t + 1023 of the batch.  At each point the body reads thirteen blocks whole — the rows' embeddings, their
  429-wide layout, the dense features, the first-order sums, and the weights, which are the same block at every point —
  and stores one 1024 × 1 block, computed from those thirteen by the body's arithmetic, over the whole of its output
  block (it also loads that block first and discards what it read).  So after the body the output block is a function
  `outBlock` of the thirteen input blocks alone, every input block is unchanged, and nothing else is touched: that is
  all the launch theorem asks of a body, and it returns the run with every array of the call named.  No host
  operation writes an argument array, so each argument is found at the call, and left after it, as it was launched.
-/
import proofs.«147846_j2156073583145_2_alg».proof.Proof.Gen.KernelIdeal.Launch
import proofs.«147846_j2156073583145_2_alg».proof.Proof.Gen.KernelIdeal.Skeleton
import proofs.«147846_j2156073583145_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core `c`'s buffers when the call is entered: the launch contents after the host operations before it. -/
abbrev V (c : Dev nD) (b : Ref sig .tc) : Buf (Elt F) ((c : Thread nD τ).loc b) :=
  StableHlo.after (List.flatten [hostOps0]) (fun b => m (c, b)) b

/-- No host operation allocates anything. -/
theorem hostOps0_fresh : (hostOps0 : List (HloOp τ sig (Elt F))).Forall fun op => op.fresh = ∅ := by
  simp only [List.Forall]; repeat' constructor

/-- The program is its host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every point, whether the point fetches it or its index has not moved
    since the point that did: for any proof data over the arrays `V` whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run, from the run's description of every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 12).trans (((dats 0 c).arrAt_in 12 rfl _).trans ((hA c 12).trans (V_main_arg5 m c))),
      ((h c).2 main_arg6 (Pipeline.mem_restRefs_of main_arg6 (by decide) (by decide))).trans (V_main_arg6 m c),
      ((h c).1 6).trans (((dats 0 c).arrAt_in 6 rfl _).trans ((hA c 6).trans (V_main_arg7 m c))),
      ((h c).2 main_arg8 (Pipeline.mem_restRefs_of main_arg8 (by decide) (by decide))).trans (V_main_arg8 m c),
      ((h c).1 8).trans (((dats 0 c).arrAt_in 8 rfl _).trans ((hA c 8).trans (V_main_arg9 m c))),
      ((h c).2 main_arg10 (Pipeline.mem_restRefs_of main_arg10 (by decide) (by decide))).trans (V_main_arg10 m c),
      ((h c).1 10).trans (((dats 0 c).arrAt_in 10 rfl _).trans ((hA c 10).trans (V_main_arg11 m c))),
      ((h c).2 main_arg12 (Pipeline.mem_restRefs_of main_arg12 (by decide) (by decide))).trans (V_main_arg12 m c)⟩) h

/-! ## What the body leaves in the output block -/

/-- The output block after the body, from the thirteen input blocks: its one store, of the body's arithmetic applied
    to the blocks read whole, over the whole block. -/
def outBlock (x0 : Vec F S1024x26x16 .f32) (x1 : Vec F S1024x429 .bf16) (x2 : Vec F S1024x13 .f32) (x3 : Vec F S1024x1 .f32) (x4 : Vec F S13x1 .f32) (x5 : Vec F S429x400 .bf16) (x6 : Vec F S400 .f32) (x7 : Vec F S400x400 .bf16) (x8 : Vec F S400 .f32) (x9 : Vec F S400x400 .bf16) (x10 : Vec F S400 .f32) (x11 : Vec F S400x1 .bf16) (x12 : Vec F S1 .f32) : Vec F S1024x1 .f32 :=
  View.canon [⟨(Rect.unit (s := S1024x1) ![0, 0] S1024x1.size inb_S1024x1_S1024x1_0_0), k0_pay1 (k0_pay2 (View.ld x0 (Rect.unit (s := S1024x26x16) ![0, 0, 0] S1024x26x16.size inb_S1024x26x16_S1024x26x16_0_0_0))) (k0_pay3 (View.ld x1 (Rect.unit (s := S1024x429) ![0, 0] S1024x429.size inb_S1024x429_S1024x429_0_0)) (View.ld x5 (Rect.unit (s := S429x400) ![0, 0] S429x400.size inb_S429x400_S429x400_0_0)) (View.ld x6 (Rect.unit (s := S400) ![0] S400.size inb_S400_S400_0)) (View.ld x7 (Rect.unit (s := S400x400) ![0, 0] S400x400.size inb_S400x400_S400x400_0_0)) (View.ld x8 (Rect.unit (s := S400) ![0] S400.size inb_S400_S400_0)) (View.ld x9 (Rect.unit (s := S400x400) ![0, 0] S400x400.size inb_S400x400_S400x400_0_0))) (View.ld x10 (Rect.unit (s := S400) ![0] S400.size inb_S400_S400_0)) (View.ld x11 (Rect.unit (s := S400x1) ![0, 0] S400x1.size inb_S400x1_S400x1_0_0)) (View.ld x2 (Rect.unit (s := S1024x13) ![0, 0] S1024x13.size inb_S1024x13_S1024x13_0_0)) (View.ld x4 (Rect.unit (s := S13x1) ![0, 0] S13x1.size inb_S13x1_S13x1_0_0)) (View.ld x3 (Rect.unit (s := S1024x1) ![0, 0] S1024x1.size inb_S1024x1_S1024x1_0_0)) (View.ld x12 (Rect.unit (s := S1) ![0] S1.size inb_S1_S1_0))⟩]

/-- The one store covers the block. -/
theorem cover_out (p0 : Vec F S1024x1 .f32) (y : S1024x1.Idx) :
    ∃ pc ∈ ([⟨(Rect.unit (s := S1024x1) ![0, 0] S1024x1.size inb_S1024x1_S1024x1_0_0), p0⟩] : List (View.Piece (Elt F) S1024x1 .f32)), y ∈ pc.1.set :=
  View.cover_of_tiled [⟨(Rect.unit (s := S1024x1) ![0, 0] S1024x1.size inb_S1024x1_S1024x1_0_0), p0⟩] S1024x1.size (by rfl) y

/-! ## The body's triple -/

set_option maxHeartbeats 4000000 in
/-- The body on whole staging buffers, the inputs' at contents `xW` and the output's at anything, runs to the
    continuation holding the inputs' as they were and the output's at `outBlock` of them. -/
theorem sound_kernel (c : Dev nD) (E : Set ℕ) (i : grid0.Coords) (arg1 : Memref sig .tc .vmem S1024x26x16 .f32) (harg1 : arg1.IsWhole) (arg2 : Memref sig .tc .vmem S1024x429 .bf16) (harg2 : arg2.IsWhole) (arg3 : Memref sig .tc .vmem S1024x13 .f32) (harg3 : arg3.IsWhole) (arg4 : Memref sig .tc .vmem S1024x1 .f32) (harg4 : arg4.IsWhole) (arg5 : Memref sig .tc .vmem S13x1 .f32) (harg5 : arg5.IsWhole) (arg6 : Memref sig .tc .vmem S429x400 .bf16) (harg6 : arg6.IsWhole) (arg7 : Memref sig .tc .vmem S400 .f32) (harg7 : arg7.IsWhole) (arg8 : Memref sig .tc .vmem S400x400 .bf16) (harg8 : arg8.IsWhole) (arg9 : Memref sig .tc .vmem S400 .f32) (harg9 : arg9.IsWhole) (arg10 : Memref sig .tc .vmem S400x400 .bf16) (harg10 : arg10.IsWhole) (arg11 : Memref sig .tc .vmem S400 .f32) (harg11 : arg11.IsWhole) (arg12 : Memref sig .tc .vmem S400x1 .bf16) (harg12 : arg12.IsWhole) (arg13 : Memref sig .tc .vmem S1 .f32) (harg13 : arg13.IsWhole) (arg14 : Memref sig .tc .vmem S1024x1 .f32) (harg14 : arg14.IsWhole)
    (x0 : Vec F S1024x26x16 .f32) (x1 : Vec F S1024x429 .bf16) (x2 : Vec F S1024x13 .f32) (x3 : Vec F S1024x1 .f32) (x4 : Vec F S13x1 .f32) (x5 : Vec F S429x400 .bf16) (x6 : Vec F S400 .f32) (x7 : Vec F S400x400 .bf16) (x8 : Vec F S400 .f32) (x9 : Vec F S400x400 .bf16) (x10 : Vec F S400 .f32) (x11 : Vec F S400x1 .bf16) (x12 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outBlock x0 x1 x2 x3 x4 x5 x6 x7 x8 x9 x10 x11 x12)) -∗ K ⟨⟩))
      ⊢ wp frame (wpE (defs₀ (F := F)) Variants.none c none) E (cc0__dnn_fm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dnn_fm_kernel_eq_skeleton]; unfold cc0__dnn_fm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover_out _)

/-! ## The proof data of the call -/

/-- The arrays as the call finds them; after the body at point `t` each input's buffer at its block and the output's
    at `outBlock` of the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the call at what the proof data says and every other buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its thirteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Whole

end
-- ==== Proof.Spec.lean ====
/-
  The function both programs compute, one batch row at a time.

  A row of the batch carries 26 embedding vectors of length 16 (`fm f e`), the same numbers laid out with the 13
  dense features as one vector of length 429 (`hh`), the sum of its 26 first-order weights (`lin`) and the dense
  features themselves (`xd`).  The score of the row is the logistic function of the sum of five terms, added in this
  order:
    the first-order sum, plus the dense features weighted by `wd`,
    plus half the sum over the 16 coordinates of (square of the sum over the 26 vectors minus the sum of the squares),
    plus the output of three dense layers of width 400, each followed by the positive part, weighted by `wf`,
    plus the bias.
  Every sum is a finite sum of extended reals; nothing here needs the entries to be finite, because the two programs
  perform the same additions and products in the same grouping.
-/
import Idealize.ShloMosaic.PureOps.Ideal
import Idealize.ShloMosaic.Lib.ValueIdx

noncomputable section

namespace Cert.FmDnn

open Idealize.ShloMosaic Idealize.ShloMosaic.ValueIdx
open scoped BigOperators

/-- One dense layer followed by the positive part: entry `j` is `max (∑ k, h k * W k j + b j) 0`. -/
def layer {K N : ℕ} (h : Fin K → EReal) (W : Fin K → Fin N → EReal) (b : Fin N → EReal) (j : Fin N) : EReal :=
  max (∑ k : Fin K, h k * W k j + b j) 0

/-- The second-order term of a row: half of, summed over the 16 coordinates, the square of the sum of the 26 vectors'
    entries minus the sum of their squares.  The factor is the single-precision word of one half, which both programs
    carry unchanged. -/
def cross (fm : Fin 26 → Fin 16 → EReal) : EReal :=
  Ideal.ofBits .f32 0x3F000000#32
    * ∑ e : Fin 16, ((∑ f : Fin 26, fm f e) * (∑ f : Fin 26, fm f e) - ∑ f : Fin 26, fm f e * fm f e)

/-- The score of one row. -/
def rowOut (fm : Fin 26 → Fin 16 → EReal) (hh : Fin 429 → EReal) (lin : EReal) (xd wd : Fin 13 → EReal) (bias : EReal)
    (w0 : Fin 429 → Fin 400 → EReal) (b0 : Fin 400 → EReal) (w1 : Fin 400 → Fin 400 → EReal) (b1 : Fin 400 → EReal)
    (w2 : Fin 400 → Fin 400 → EReal) (b2 : Fin 400 → EReal) (wf : Fin 400 → EReal) : EReal :=
  Ideal.logistic
    ((((lin + ∑ d : Fin 13, xd d * wd d) + cross fm)
        + ∑ k : Fin 400, layer (layer (layer hh w0 b0) w1 b1) w2 b2 k * wf k) + bias)

/-- The whole result, a column of 16384 scores: row `R` of every batch-indexed array, and the weights whole. -/
def G (FM : (⟨3, ![16384, 26, 16]⟩ : Shape).Idx → EReal) (HH : (⟨2, ![16384, 429]⟩ : Shape).Idx → EReal)
    (LIN : (⟨2, ![16384, 1]⟩ : Shape).Idx → EReal) (XD : (⟨2, ![16384, 13]⟩ : Shape).Idx → EReal)
    (WD : (⟨2, ![13, 1]⟩ : Shape).Idx → EReal) (BIAS : (⟨1, ![1]⟩ : Shape).Idx → EReal)
    (W0 : (⟨2, ![429, 400]⟩ : Shape).Idx → EReal) (B0 : (⟨1, ![400]⟩ : Shape).Idx → EReal)
    (W1 : (⟨2, ![400, 400]⟩ : Shape).Idx → EReal) (B1 : (⟨1, ![400]⟩ : Shape).Idx → EReal)
    (W2 : (⟨2, ![400, 400]⟩ : Shape).Idx → EReal) (B2 : (⟨1, ![400]⟩ : Shape).Idx → EReal)
    (WF : (⟨2, ![400, 1]⟩ : Shape).Idx → EReal) : (⟨2, ![16384, 1]⟩ : Shape).Idx → EReal := fun i =>
  have R : Fin 16384 := i 0
  rowOut (fun f e => FM (ix3 R f e)) (fun k => HH (ix2 R k)) (LIN (ix2 R (0 : Fin 1))) (fun d => XD (ix2 R d))
    (fun d => WD (ix2 d (0 : Fin 1))) (BIAS (ix1 (0 : Fin 1)))
    (fun k j => W0 (ix2 k j)) (fun j => B0 (ix1 j)) (fun k j => W1 (ix2 k j)) (fun j => B1 (ix1 j))
    (fun k j => W2 (ix2 k j)) (fun j => B2 (ix1 j)) (fun k => WF (ix2 k (0 : Fin 1)))

end Cert.FmDnn

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.KernelRow.lean ====
/-
  The arithmetic of the kernel body, read at one row of its block.

  The body works on a block of 1024 rows at once.  Its second-order term sums the 26 embedding vectors of a row and
  their squares along the middle axis of the block, subtracts, sums the 16 coordinates and multiplies by one half; its
  three dense layers are matrix products into a zero accumulator, each followed by a bias row and the positive part;
  the last layer is weighted by a column; the dense features are weighted by a column laid out as a row and summed.
  Every one of these steps acts row by row, so the value the body stores at row `r` of its block is the score
  `Cert.FmDnn.rowOut` of the row-`r` entries of the row-indexed blocks and of the weights whole, with every sum in
  the same grouping.
-/
import proofs.«147846_j2156073583145_2_alg».proof.Proof.Gen.KernelIdeal.Skeleton
import proofs.«147846_j2156073583145_2_alg».proof.Proof.Spec
import proofs.«147846_j2156073583145_2_alg».proof.Proof.LibMatmul
import proofs.«147846_j2156073583145_2_alg».proof.Proof.LibRank3Layout
import proofs.«147846_j2156073583145_2_alg».proof.Proof.LibColumnCasts
import Idealize.ShloMosaic.Lib.ValueLayout

noncomputable section

namespace Cert.KernelIdeal.RowValue

open Cert.KernelIdeal Cert.KernelIdeal.Gen Idealize.ShloMosaic Idealize.ShloMosaic.ValueIdx
open scoped BigOperators

/-! ## General steps, for any sizes -/

/-- A length-`n` vector made a `1 x n` row and repeated down `M` rows reads, at `(p, q)`, the vector's entry `q`. -/
theorem biasRow_apply {α : Type} {M n : ℕ} (b : (⟨1, ![n]⟩ : Shape).Idx → α)
    (hc : (⟨1, ![n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ b hc) hb (ix2 p q) = b (ix1 q) := by
  refine (broadcastTo_apply (shapeCast ⟨2, ![1, n]⟩ b hc) hb (ix2 p q) (ix2 (0 : Fin 1) q) fun a => ?_).trans
    (shapeCast_a_1a_apply b hc 0 q)
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- One dense layer of the body: a matrix product into the zero accumulator, plus the bias vector laid out as a row
    and repeated down the rows, then the larger of that and the zero word.  At `(p, q)` it is the layer of the
    specification applied to row `p` of the left operand. -/
theorem layer_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    maximumf
        (addf (matmul (Cert.MatmulAt.plainDims wf) prec lhs rhs (constant (F := Ideal) ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)) (ix2 p q)
      = Cert.FmDnn.layer (fun k => lhs (ix2 p k)) (fun k j => rhs (ix2 k j)) (fun j => b (ix1 j)) q := by
  show max (matmul (Cert.MatmulAt.plainDims wf) prec lhs rhs (constant (F := Ideal) ⟨2, ![M, N]⟩ .f32 0x00000000#32) (ix2 p q)
        + broadcastTo ⟨2, ![M, N]⟩ (shapeCast ⟨2, ![1, N]⟩ b hc) hb (ix2 p q)) (Ideal.ofBits .f32 0x00000000#32) = _
  rw [Cert.MatmulAt.matmul_zero_plain_apply wf prec lhs rhs p q, biasRow_apply b hc hb p q, Ideal.ofBits_zero_f32]
  rfl

/-! ## The body's three terms at row `r` -/

/-- The second-order term at row `r`: half of, summed over the 16 coordinates, the square of the sum of the row's 26
    vectors minus the sum of their squares. -/
theorem pay2_row (x0 : Vec Ideal S1024x26x16 .f32) (r : Fin 1024) (u : Fin 1) :
    k0_pay2 (F := Ideal) x0 (ix2 r u) = Cert.FmDnn.cross (fun f e => x0 (ix3 r f e)) := by
  unfold k0_pay2
  simp only [shapeCast_self]
  refine (congrArg (fun t => Ideal.ofBits .f32 0x3F000000#32 * t)
    ((Cert.ColumnCasts.shapeCast_a_a1_apply _ shapeCasts_S1024_S1024x1 r u).trans
      (Cert.ColumnCasts.rowSum_apply _ reduces_S1024x16_S1024 (.inl rfl) rfl r))).trans ?_
  unfold Cert.FmDnn.cross
  refine congrArg (fun t => Ideal.ofBits .f32 0x3F000000#32 * t) (Finset.sum_congr rfl fun e _ => ?_)
  show multiReduction (F := Ideal) (φ := .f32) .add [1] S1024x16 x0 0x00000000#32 reduces_S1024x26x16_S1024x16 (.inl rfl) rfl (ix2 r e)
        * multiReduction (F := Ideal) (φ := .f32) .add [1] S1024x16 x0 0x00000000#32 reduces_S1024x26x16_S1024x16 (.inl rfl) rfl (ix2 r e)
      - multiReduction .add [1] S1024x16 (mulf (F := Ideal) (φ := .f32) x0 x0) 0x00000000#32 reduces_S1024x26x16_S1024x16 (.inl rfl) rfl (ix2 r e) = _
  rw [Cert.Rank3Layout.sumMiddle_apply (x0 : FVec Ideal S1024x26x16 .f32) reduces_S1024x26x16_S1024x16 (.inl rfl) rfl r e,
    Cert.Rank3Layout.sumMiddle_apply (mulf (F := Ideal) (φ := .f32) x0 x0) reduces_S1024x26x16_S1024x16 (.inl rfl) rfl r e]
  rfl

/-- The three dense layers at row `r`: the third matrix product, before its bias, at `(r, j)` is the product of the
    second layer's output for the row with column `j` of the third weight matrix. -/
theorem pay3_row (x1 : Vec Ideal S1024x429 .bf16) (x5 : Vec Ideal S429x400 .bf16) (x6 : Vec Ideal S400 .f32)
    (x7 : Vec Ideal S400x400 .bf16) (x8 : Vec Ideal S400 .f32) (x9 : Vec Ideal S400x400 .bf16)
    (r : Fin 1024) (j : Fin 400) :
    k0_pay3 (F := Ideal) x1 x5 x6 x7 x8 x9 (ix2 r j)
      = ∑ k : Fin 400,
          Cert.FmDnn.layer
              (Cert.FmDnn.layer (fun k => x1 (ix2 r k)) (fun k j => x5 (ix2 k j)) (fun j => x6 (ix1 j)))
              (fun k j => x7 (ix2 k j)) (fun j => x8 (ix1 j)) k
            * x9 (ix2 k j) := by
  unfold k0_pay3
  simp only [shapeCast_self]
  refine (Cert.MatmulAt.matmul_zero_plain_apply (φ₁ := .bf16) (φ₂ := .bf16)
    Facts₀.dot_S1024x400_S400x400_S1024x400_1_0_0_1_n_n_wf none _ (x9 : FVec Ideal S400x400 .bf16) r j).trans ?_
  refine Finset.sum_congr rfl fun k _ => congrArg (fun t => t * x9 (ix2 k j)) ?_
  refine (layer_apply (φ₁ := .bf16) (φ₂ := .bf16) Facts₀.dot_S1024x400_S400x400_S1024x400_1_0_0_1_n_n_wf none _ (x7 : FVec Ideal S400x400 .bf16)
    (x8 : FVec Ideal S400 .f32) shapeCasts_S400_S1x400 broadcasts_S1x400_S1024x400 r k).trans ?_
  refine congrArg (fun h => Cert.FmDnn.layer h (fun k j => x7 (ix2 k j)) (fun j => x8 (ix1 j)) k) (funext fun k' => ?_)
  exact layer_apply (φ₁ := .bf16) (φ₂ := .bf16) Facts₀.dot_S1024x429_S429x400_S1024x400_1_0_0_1_n_n_wf none (x1 : FVec Ideal S1024x429 .bf16)
    (x5 : FVec Ideal S429x400 .bf16) (x6 : FVec Ideal S400 .f32) shapeCasts_S400_S1x400 broadcasts_S1x400_S1024x400 r k'

/-- The dense linear term at row `r`: the weight column, handed over as a vector, laid out as a row and repeated down
    the rows, multiplies the dense features entry by entry; the sum over the 13 columns is kept as a column. -/
theorem dense_row (x2 : Vec Ideal S1024x13 .f32) (x4 : Vec Ideal S13x1 .f32) (r : Fin 1024) (u : Fin 1) :
    shapeCast S1024x1
        (multiReduction (F := Ideal) (φ := .f32) .add [1] S1024
          (mulf (F := Ideal) (φ := .f32) x2
            (broadcastTo S1024x13 (shapeCast S1x13 (shapeCast S13 x4 shapeCasts_S13x1_S13) shapeCasts_S13_S1x13)
              broadcasts_S1x13_S1024x13))
          0x00000000#32 reduces_S1024x13_S1024 (.inl rfl) rfl)
        shapeCasts_S1024_S1024x1 (ix2 r u)
      = ∑ d : Fin 13, x2 (ix2 r d) * x4 (ix2 d (0 : Fin 1)) := by
  refine ((Cert.ColumnCasts.shapeCast_a_a1_apply _ shapeCasts_S1024_S1024x1 r u).trans
    (Cert.ColumnCasts.rowSum_apply _ reduces_S1024x13_S1024 (.inl rfl) rfl r)).trans ?_
  refine Finset.sum_congr rfl fun d _ => congrArg (fun t => x2 (ix2 r d) * t) ?_
  exact (biasRow_apply (shapeCast S13 x4 shapeCasts_S13x1_S13) shapeCasts_S13_S1x13 broadcasts_S1x13_S1024x13 r d).trans
    (Cert.ColumnCasts.shapeCast_a1_a_apply x4 shapeCasts_S13x1_S13 d)

/-- The last layer at row `r`: the third product plus its bias row, the positive part, weighted by the last column. -/
theorem last_row (v35 : FVec Ideal S1024x400 .f32) (x10 : Vec Ideal S400 .f32) (x11 : Vec Ideal S400x1 .bf16)
    (r : Fin 1024) (u : Fin 1) :
    matmul (φ₁ := .bf16) (φ₂ := .bf16) dot_S1024x400_S400x1_S1024x1_1_0_0_1_n_n none
        (truncf .bf16
          (maximumf
            (addf v35 (broadcastTo S1024x400 (shapeCast S1x400 x10 shapeCasts_S400_S1x400) broadcasts_S1x400_S1024x400))
            (broadcast S1024x400 (Scalar.ofBits (F := Ideal) .f32 0x00000000#32)))
          bitsLt_bf16_f32)
        (x11 : FVec Ideal S400x1 .bf16) (constant (F := Ideal) S1024x1 .f32 0x00000000#32) (ix2 r u)
      = ∑ k : Fin 400, max (v35 (ix2 r k) + x10 (ix1 k)) 0 * x11 (ix2 k u) := by
  refine (Cert.MatmulAt.matmul_zero_plain_apply (φ₁ := .bf16) (φ₂ := .bf16)
    Facts₀.dot_S1024x400_S400x1_S1024x1_1_0_0_1_n_n_wf none _ (x11 : FVec Ideal S400x1 .bf16) r u).trans ?_
  refine Finset.sum_congr rfl fun k _ => congrArg (fun t => t * x11 (ix2 k u)) ?_
  show max (v35 (ix2 r k)
      + broadcastTo S1024x400 (shapeCast S1x400 x10 shapeCasts_S400_S1x400) broadcasts_S1x400_S1024x400 (ix2 r k))
      (Ideal.ofBits .f32 0x00000000#32) = _
  rw [biasRow_apply x10 shapeCasts_S400_S1x400 broadcasts_S1x400_S1024x400 r k, Ideal.ofBits_zero_f32]

/-! ## The stored value at row `r` -/

/-- The value the body stores at row `r` of its block is the score of that row. -/
theorem body_row (x0 : Vec Ideal S1024x26x16 .f32) (x1 : Vec Ideal S1024x429 .bf16) (x2 : Vec Ideal S1024x13 .f32)
    (x3 : Vec Ideal S1024x1 .f32) (x4 : Vec Ideal S13x1 .f32) (x5 : Vec Ideal S429x400 .bf16) (x6 : Vec Ideal S400 .f32)
    (x7 : Vec Ideal S400x400 .bf16) (x8 : Vec Ideal S400 .f32) (x9 : Vec Ideal S400x400 .bf16) (x10 : Vec Ideal S400 .f32)
    (x11 : Vec Ideal S400x1 .bf16) (x12 : Vec Ideal S1 .f32) (r : Fin 1024) (u : Fin 1) :
    k0_pay1 (F := Ideal) (k0_pay2 x0) (k0_pay3 x1 x5 x6 x7 x8 x9) x10 x11 x2 x4 x3 x12 (ix2 r u)
      = Cert.FmDnn.rowOut (fun f e => x0 (ix3 r f e)) (fun k => x1 (ix2 r k)) (x3 (ix2 r (0 : Fin 1)))
          (fun d => x2 (ix2 r d)) (fun d => x4 (ix2 d (0 : Fin 1))) (x12 (ix1 (0 : Fin 1)))
          (fun k j => x5 (ix2 k j)) (fun j => x6 (ix1 j)) (fun k j => x7 (ix2 k j)) (fun j => x8 (ix1 j))
          (fun k j => x9 (ix2 k j)) (fun j => x10 (ix1 j)) (fun k => x11 (ix2 k (0 : Fin 1))) := by
  obtain rfl : u = 0 := Fin.fin_one_eq_zero u
  have hD := dense_row x2 x4 r 0
  have hP := pay2_row x0 r 0
  have hM := last_row (k0_pay3 (F := Ideal) x1 x5 x6 x7 x8 x9) x10 x11 r 0
  have hB := biasRow_apply x12 shapeCasts_S1_S1x1 broadcasts_S1x1_S1024x1 r 0
  unfold k0_pay1
  simp only [shapeCast_self]
  show Ideal.logistic ((((x3 (ix2 r 0) + _) + _) + _) + _) = _
  rw [hD, hP, hM, hB]
  unfold Cert.FmDnn.rowOut
  refine congrArg (fun t => Ideal.logistic ((((x3 (ix2 r 0) + ∑ d : Fin 13, x2 (ix2 r d) * x4 (ix2 d (0 : Fin 1)))
    + Cert.FmDnn.cross (fun f e => x0 (ix3 r f e))) + t) + x12 (ix1 (0 : Fin 1)))) ?_
  refine Finset.sum_congr rfl fun k _ => congrArg (fun t => t * x11 (ix2 k (0 : Fin 1))) ?_
  rw [pay3_row x1 x5 x6 x7 x8 x9 r k]
  rfl

end Cert.KernelIdeal.RowValue

end
-- ==== Proof.KernelValue.lean ====
/-
  What the call's result array holds after the run, as one function of the arrays the call finds.

  Point `t` of the grid writes back rows 1024·t … 1024·t + 1023 of the result.  Its input blocks are the same rows of
  the four batch-indexed arrays (embeddings, 429-wide layout, dense features, first-order sums) and the whole of every
  weight array; so the body's arithmetic at row `r` of the block is the score of row 1024·t + r of the batch, computed
  from the arrays themselves.  The sixteen blocks tile the 16384 rows, hence the array ends as that score at every row.
-/
import proofs.«147846_j2156073583145_2_alg».proof.Proof.WholeKernelIdeal
import proofs.«147846_j2156073583145_2_alg».proof.Proof.KernelRow
import proofs.«147846_j2156073583145_2_alg».proof.Proof.Spec
import Idealize.ShloMosaic.Lib.Pipeline.Value

set_option maxRecDepth 16384

noncomputable section

namespace Cert.KernelIdeal.Scores

open Cert.KernelIdeal Cert.KernelIdeal.Gen Cert.KernelIdeal.Whole
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The scores of all rows, from the arrays as the call finds them on core `c`. -/
def scores (c : Dev nD) : S16384x1.Idx → EReal :=
  Cert.FmDnn.G (V m c main_v36) (V m c main_v39) (V m c main_v21) (V m c main_arg1) (V m c main_arg4) (V m c main_arg5) (V m c main_v40) (V m c main_arg7) (V m c main_v41) (V m c main_arg9) (V m c main_v42) (V m c main_arg11) (V m c main_v43)

/-- The score of the row an index of the result lies on: row `R` of every batch-indexed array. -/
theorem scores_at (c : Dev nD) (i : S16384x1.Idx) (R : Fin 16384) (hR : R.val = (i 0).val) :
    scores m c i = Cert.FmDnn.rowOut (fun f e => V m c main_v36 (ix3 R f e)) (fun k => V m c main_v39 (ix2 R k)) (V m c main_v21 (ix2 R (0 : Fin 1))) (fun d => V m c main_arg1 (ix2 R d))
        (fun d => V m c main_arg4 (ix2 d (0 : Fin 1))) (V m c main_arg5 (ix1 (0 : Fin 1))) (fun k j => V m c main_v40 (ix2 k j)) (fun j => V m c main_arg7 (ix1 j))
        (fun k j => V m c main_v41 (ix2 k j)) (fun j => V m c main_arg9 (ix1 j)) (fun k j => V m c main_v42 (ix2 k j)) (fun j => V m c main_arg11 (ix1 j)) (fun k => V m c main_v43 (ix2 k (0 : Fin 1))) := by
  have e : R = i 0 := Fin.ext hR
  subst e
  rfl

/-- Reading an array through the block of point `t` is reading it at the index the block places there. -/
theorem read_out (t : Fin cfg0.N) (g : S16384x1.Idx → EReal) (j : S1024x1.Idx) :
    ((cfg0.win 13).blk t).view.read (Elt Ideal) g j = g (((cfg0.win 13).blk t).view.emb j) := rfl

/-- Where each window's block sits at point `t`, decided over the 16 points: the four batch-indexed inputs move with
    the output along the rows, every other coordinate of every block index is zero. -/
theorem idx_facts : ∀ t : Fin cfg0.N,
    win0_0.index t (0 : Fin 3) = win0_13.index t (0 : Fin 2) ∧ win0_0.index t (1 : Fin 3) = 0 ∧ win0_0.index t (2 : Fin 3) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_3.index t (0 : Fin 2) = win0_13.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (1 : Fin 2) = 0 ∧ win0_13.index t (0 : Fin 2) ≤ 15 :=
  (by decide +kernel : ∀ t : Fin grid0.N, _)

/-- Every block of 1024 rows is some point's. -/
theorem idx_onto : ∀ q0 : Fin 16, ∃ t : Fin cfg0.N, win0_13.index t = ![q0.val, 0] :=
  (by decide +kernel : ∀ q0 : Fin 16, ∃ t : Fin grid0.N, win0_13.index t = ![q0.val, 0])

set_option maxHeartbeats 4000000 in
/-- What point `t` writes back is block `t` of the scores. -/
theorem flushed_eq (c : Dev nD) (t : Fin cfg0.N) :
    (dats m 0 c).flushed 13 t = ((cfg0.win 13).blk t).view.read (Elt Ideal) (scores m c) := by
  show (cfg0.win 13).cut (grid0.coords t) ((dats m 0 c).after 13 t) = _
  rw [after_13]
  unfold outBlock
  rw [View.canon_unit_zero hz2]
  simp only [View.ld_unit_zero (S := S1024x26x16) hz3, View.ld_unit_zero (S := S1024x429) hz2,
    View.ld_unit_zero (S := S1024x13) hz2, View.ld_unit_zero (S := S1024x1) hz2, View.ld_unit_zero (S := S13x1) hz2,
    View.ld_unit_zero (S := S429x400) hz2, View.ld_unit_zero (S := S400) hz1, View.ld_unit_zero (S := S400x400) hz2,
    View.ld_unit_zero (S := S400x1) hz2, View.ld_unit_zero (S := S1) hz1]
  obtain ⟨a0, a1, a2, b0, b1, c0, c1, d0, d1, e0, e1, f0, f1, g0, h0, h1, i0, j0, j1, k0, l0, l1, n0, o1, o0⟩ := idx_facts t
  funext j
  obtain ⟨r, u, rfl⟩ : ∃ (r : Fin 1024) (u : Fin 1), j = ix2 r u := ⟨j 0, j 1, eq_ix2 j⟩
  refine (Cert.KernelIdeal.RowValue.body_row _ _ _ _ _ _ _ _ _ _ _ _ _ r u).trans ?_
  have hr : r.val < 1024 := r.isLt
  obtain ⟨R, hRv⟩ : ∃ R : Fin 16384, R.val = win0_13.index t (0 : Fin 2) * 1024 + r.val := ⟨⟨win0_13.index t (0 : Fin 2) * 1024 + r.val, by omega⟩, rfl⟩
  have p0 : ∀ (f : Fin 26) (e : Fin 16), ((cfg0.win 0).blk t).view.emb (ix3 r f e) = ix3 R f e := by
    intro f e
    funext a; apply Fin.ext
    match a with
    | ⟨0, _⟩ => show win0_0.index t (0 : Fin 3) * 1024 + 1 * r.val = R.val; omega
    | ⟨1, _⟩ => show win0_0.index t (1 : Fin 3) * 26 + 1 * f.val = f.val; omega
    | ⟨2, _⟩ => show win0_0.index t (2 : Fin 3) * 16 + 1 * e.val = e.val; omega
  have p1 : ∀ (k : Fin 429), ((cfg0.win 1).blk t).view.emb (ix2 r k) = ix2 R k := by
    intro k
    funext a; apply Fin.ext
    match a with
    | ⟨0, _⟩ => show win0_1.index t (0 : Fin 2) * 1024 + 1 * r.val = R.val; omega
    | ⟨1, _⟩ => show win0_1.index t (1 : Fin 2) * 429 + 1 * k.val = k.val; omega
  have p3 : ∀ (z : Fin 1), ((cfg0.win 3).blk t).view.emb (ix2 r z) = ix2 R z := by
    intro z
    funext a; apply Fin.ext
    match a with
    | ⟨0, _⟩ => show win0_3.index t (0 : Fin 2) * 1024 + 1 * r.val = R.val; omega
    | ⟨1, _⟩ => show win0_3.index t (1 : Fin 2) * 1 + 1 * z.val = z.val; omega
  have p2 : ∀ (d : Fin 13), ((cfg0.win 2).blk t).view.emb (ix2 r d) = ix2 R d := by
    intro d
    funext a; apply Fin.ext
    match a with
    | ⟨0, _⟩ => show win0_2.index t (0 : Fin 2) * 1024 + 1 * r.val = R.val; omega
    | ⟨1, _⟩ => show win0_2.index t (1 : Fin 2) * 13 + 1 * d.val = d.val; omega
  have p4 : ∀ (d : Fin 13) (z : Fin 1), ((cfg0.win 4).blk t).view.emb (ix2 d z) = ix2 d z := by
    intro d z
    funext a; apply Fin.ext
    match a with
    | ⟨0, _⟩ => show win0_4.index t (0 : Fin 2) * 13 + 1 * d.val = d.val; omega
    | ⟨1, _⟩ => show win0_4.index t (1 : Fin 2) * 1 + 1 * z.val = z.val; omega
  have p12 : ∀ (z : Fin 1), ((cfg0.win 12).blk t).view.emb (ix1 z) = ix1 z := by
    intro z
    funext a; apply Fin.ext
    match a with
    | ⟨0, _⟩ => show win0_12.index t (0 : Fin 1) * 1 + 1 * z.val = z.val; omega
  have p5 : ∀ (k : Fin 429) (j : Fin 400), ((cfg0.win 5).blk t).view.emb (ix2 k j) = ix2 k j := by
    intro k j
    funext a; apply Fin.ext
    match a with
    | ⟨0, _⟩ => show win0_5.index t (0 : Fin 2) * 429 + 1 * k.val = k.val; omega
    | ⟨1, _⟩ => show win0_5.index t (1 : Fin 2) * 400 + 1 * j.val = j.val; omega
  have p6 : ∀ (j : Fin 400), ((cfg0.win 6).blk t).view.emb (ix1 j) = ix1 j := by
    intro j
    funext a; apply Fin.ext
    match a with
    | ⟨0, _⟩ => show win0_6.index t (0 : Fin 1) * 400 + 1 * j.val = j.val; omega
  have p7 : ∀ (k : Fin 400) (j : Fin 400), ((cfg0.win 7).blk t).view.emb (ix2 k j) = ix2 k j := by
    intro k j
    funext a; apply Fin.ext
    match a with
    | ⟨0, _⟩ => show win0_7.index t (0 : Fin 2) * 400 + 1 * k.val = k.val; omega
    | ⟨1, _⟩ => show win0_7.index t (1 : Fin 2) * 400 + 1 * j.val = j.val; omega
  have p8 : ∀ (j : Fin 400), ((cfg0.win 8).blk t).view.emb (ix1 j) = ix1 j := by
    intro j
    funext a; apply Fin.ext
    match a with
    | ⟨0, _⟩ => show win0_8.index t (0 : Fin 1) * 400 + 1 * j.val = j.val; omega
  have p9 : ∀ (k : Fin 400) (j : Fin 400), ((cfg0.win 9).blk t).view.emb (ix2 k j) = ix2 k j := by
    intro k j
    funext a; apply Fin.ext
    match a with
    | ⟨0, _⟩ => show win0_9.index t (0 : Fin 2) * 400 + 1 * k.val = k.val; omega
    | ⟨1, _⟩ => show win0_9.index t (1 : Fin 2) * 400 + 1 * j.val = j.val; omega
  have p10 : ∀ (j : Fin 400), ((cfg0.win 10).blk t).view.emb (ix1 j) = ix1 j := by
    intro j
    funext a; apply Fin.ext
    match a with
    | ⟨0, _⟩ => show win0_10.index t (0 : Fin 1) * 400 + 1 * j.val = j.val; omega
  have p11 : ∀ (k : Fin 400) (z : Fin 1), ((cfg0.win 11).blk t).view.emb (ix2 k z) = ix2 k z := by
    intro k z
    funext a; apply Fin.ext
    match a with
    | ⟨0, _⟩ => show win0_11.index t (0 : Fin 2) * 400 + 1 * k.val = k.val; omega
    | ⟨1, _⟩ => show win0_11.index t (1 : Fin 2) * 1 + 1 * z.val = z.val; omega
  have E0 : (fun (f : Fin 26) (e : Fin 16) => iblk m c 0 t (ix3 r f e)) = fun f e => V m c main_v36 (ix3 R f e) :=
    funext fun f => funext fun e => congrArg (V m c main_v36) (p0 f e)
  have E1 : (fun (k : Fin 429) => iblk m c 1 t (ix2 r k)) = fun k => V m c main_v39 (ix2 R k) :=
    funext fun k => congrArg (V m c main_v39) (p1 k)
  have E3 : iblk m c 3 t (ix2 r (0 : Fin 1)) = V m c main_v21 (ix2 R (0 : Fin 1)) := congrArg (V m c main_v21) (p3 0)
  have E2 : (fun (d : Fin 13) => iblk m c 2 t (ix2 r d)) = fun d => V m c main_arg1 (ix2 R d) :=
    funext fun d => congrArg (V m c main_arg1) (p2 d)
  have E4 : (fun (d : Fin 13) => iblk m c 4 t (ix2 d (0 : Fin 1))) = fun d => V m c main_arg4 (ix2 d (0 : Fin 1)) :=
    funext fun d => congrArg (V m c main_arg4) (p4 d 0)
  have E12 : iblk m c 12 t (ix1 (0 : Fin 1)) = V m c main_arg5 (ix1 (0 : Fin 1)) := congrArg (V m c main_arg5) (p12 0)
  have E5 : (fun (k : Fin 429) (j : Fin 400) => iblk m c 5 t (ix2 k j)) = fun k j => V m c main_v40 (ix2 k j) :=
    funext fun k => funext fun j => congrArg (V m c main_v40) (p5 k j)
  have E6 : (fun (j : Fin 400) => iblk m c 6 t (ix1 j)) = fun j => V m c main_arg7 (ix1 j) :=
    funext fun j => congrArg (V m c main_arg7) (p6 j)
  have E7 : (fun (k : Fin 400) (j : Fin 400) => iblk m c 7 t (ix2 k j)) = fun k j => V m c main_v41 (ix2 k j) :=
    funext fun k => funext fun j => congrArg (V m c main_v41) (p7 k j)
  have E8 : (fun (j : Fin 400) => iblk m c 8 t (ix1 j)) = fun j => V m c main_arg9 (ix1 j) :=
    funext fun j => congrArg (V m c main_arg9) (p8 j)
  have E9 : (fun (k : Fin 400) (j : Fin 400) => iblk m c 9 t (ix2 k j)) = fun k j => V m c main_v42 (ix2 k j) :=
    funext fun k => funext fun j => congrArg (V m c main_v42) (p9 k j)
  have E10 : (fun (j : Fin 400) => iblk m c 10 t (ix1 j)) = fun j => V m c main_arg11 (ix1 j) :=
    funext fun j => congrArg (V m c main_arg11) (p10 j)
  have E11 : (fun (k : Fin 400) => iblk m c 11 t (ix2 k (0 : Fin 1))) = fun k => V m c main_v43 (ix2 k (0 : Fin 1)) :=
    funext fun k => congrArg (V m c main_v43) (p11 k 0)
  rw [E0, E1, E3, E2, E4, E12, E5, E6, E7, E8, E9, E10, E11]
  refine ((read_out t (scores m c) (ix2 r u)).trans (scores_at m c _ R ?_)).symm
  show R.val = win0_13.index t (0 : Fin 2) * 1024 + 1 * r.val
  omega

/-- An index of the result is in point `t`'s block iff each coordinate is in the block's range on its axis. -/
theorem mem_blk (t : Fin cfg0.N) (i : S16384x1.Idx) :
    i ∈ ((cfg0.win 13).blk t).view.set ↔ ∀ a : Fin 2, win0_13.index t a * S1024x1.size a ≤ (i a).val ∧ (i a).val < win0_13.index t a * S1024x1.size a + S1024x1.size a := by
  show i ∈ ((View.whole main_v44).slice (win0_13.rect t)).set ↔ _
  rw [View.set_slice_whole, Rect.mem_set_unit]
  exact Iff.rfl

/-- Every row of the result lies in the block of the point numbered by its quotient by 1024. -/
theorem covered (i : S16384x1.Idx) :
    ∃ t : Fin cfg0.N, (cfg0.win 13).flush t = true ∧ i ∈ ((cfg0.win 13).blk t).view.set := by
  have hi0 : (i 0).val < 16384 := (i 0).isLt
  have hi1 : (i 1).val < 1 := (i 1).isLt
  obtain ⟨t, ht⟩ := idx_onto ⟨(i 0).val / 1024, by omega⟩
  have q0 : win0_13.index t (0 : Fin 2) = (i 0).val / 1024 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 1024 ≤ (i 0).val ∧ (i 0).val < win0_13.index t (0 : Fin 2) * 1024 + 1024; omega
  | ⟨1, _⟩ => show win0_13.index t (1 : Fin 2) * 1 ≤ (i 1).val ∧ (i 1).val < win0_13.index t (1 : Fin 2) * 1 + 1; omega

/-- The result array after the run is the scores. -/
theorem final (c : Dev nD) : (dats m 0 c).arrAt 13 cfg0.N = scores m c :=
  (dats m 0 c).arrAt_eq_of_cover 13 (scores m c) (fun t _ => flushed_eq m c t) covered

/-- The run, read: the result array holds the scores and the thirteen arguments are unchanged. -/
theorem run : θ_run defs (onTc (τ := τ) (main (F := Ideal))) ⟨m, fun _ => 0, ρ⟩ fun r => ∀ c : Dev nD,
      r.2.mem ((c.tc : Thread nD τ).loc main_v44) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 13).trans (final m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 12).trans (((dats m 0 c).arrAt_in 12 rfl _).trans ((A_eq m c 12).trans (V_main_arg5 m c))),
      ((h c).2 main_arg6 (Pipeline.mem_restRefs_of main_arg6 (by decide) (by decide))).trans (V_main_arg6 m c),
      ((h c).1 6).trans (((dats m 0 c).arrAt_in 6 rfl _).trans ((A_eq m c 6).trans (V_main_arg7 m c))),
      ((h c).2 main_arg8 (Pipeline.mem_restRefs_of main_arg8 (by decide) (by decide))).trans (V_main_arg8 m c),
      ((h c).1 8).trans (((dats m 0 c).arrAt_in 8 rfl _).trans ((A_eq m c 8).trans (V_main_arg9 m c))),
      ((h c).2 main_arg10 (Pipeline.mem_restRefs_of main_arg10 (by decide) (by decide))).trans (V_main_arg10 m c),
      ((h c).1 10).trans (((dats m 0 c).arrAt_in 10 rfl _).trans ((A_eq m c 10).trans (V_main_arg11 m c))),
      ((h c).2 main_arg12 (Pipeline.mem_restRefs_of main_arg12 (by decide) (by decide))).trans (V_main_arg12 m c)⟩)
    (run_main m ρ)

end Cert.KernelIdeal.Scores

end
-- ==== Proof.LibNaryThree.lean ====
/-
  A host operation of exactly THREE operands, given as a literal family of references: what its result buffer holds.

  The library's general statement for an operation over a family `xs` of `n` operands hands its function the family
  `fun k => (contents of xs k)`, under a binder: at a literal family `![x, a, b]` the reference `![x, a, b] k` is then
  no literal, and the contents of the three operands cannot be rewritten further. Stated instead with each operand's
  contents at ITS OWN reference — the family `Fin.cons (F x) (Fin.cons (F a) (Fin.cons (F b) _))` — the rewriting of
  results goes on through the operands; the two families are equal entry by entry.
  (The library has this for a family of four; a concatenation of three arrays needs it for three.)
-/
import Idealize.ShloMosaic.Lib.StableHlo.Run

noncomputable section

namespace Cert.LibNaryThree

open Idealize.ShloMosaic Idealize.ShloMosaic.StableHlo

variable {τ : Topo} {sig : RefSig} {Val : EltTy → Type}

/-- The result of a three-operand operation, at its result buffer: its function of the three operands' contents, each
    read at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

/-- What one buffer holds after a line of host operations, computed: each operation's result at its own result buffer
    is its function's value, at any other buffer what was there before; a three-operand operation by `nary3_result`. -/
macro "after_results3" : tactic =>
  `(tactic| (simp only [after_cons, after_nil]
             repeat (first
               | rw [nullary_result] | rw [unary_result] | rw [binary_result] | rw [ternary_result]
               | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

end Cert.LibNaryThree

end
-- ==== Proof.LibHostLine.lean ====
/-
  Reading a line of host operations in two pieces: the steps of a reading, and the change of float format.

  * What the buffers hold after a line of host operations `l1 ++ l2` is what they hold after `l2`, started from what
    they hold after `l1` (the library's `StableHlo.after_append`).  A long line can so be cut where convenient — with
    `List.take_append_drop` — and its tail read over an ARBITRARY valuation, as short lemmas, while a buffer the head
    already determines is identified once over the whole line.  The two tools below are for reading the tail.
  * `results_loop` performs the steps of such a reading for nullary, unary, binary and ternary operations: at an
    operation's own result buffer its function of its operands' contents, at any other buffer the contents before it
    (also past an operation of any number of operands).  It makes no step at a reshape, which is stepped by name
    (`reshape_result`, `reshape_result_ne`) between two runs of it.
  * At the exact values a change of float format returns its operand (`format_change_id`).
-/
import Idealize.ShloMosaic.Lib.StableHlo.Run
import Idealize.ShloMosaic.PureOps.Ideal

noncomputable section

namespace Cert.LibHostLine

open Idealize.ShloMosaic Idealize.ShloMosaic.StableHlo

/-- What one buffer holds after a line of host operations already opened into its operations one inside the other
    (`simp only [after_cons, after_nil]` does that), one step at a time: an operation's function of its operands at its
    own result buffer, what was there before at any other. -/
macro "results_loop" : tactic =>
  `(tactic| repeat (first
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide)))

/-- At the exact values a change of float format leaves an array as it is. -/
theorem format_change_id {s : Shape} {φ ψ : FTy} (a : FVec Ideal s φ) (h : ψ.bits < φ.bits) :
    (truncf ψ a h : s.Idx → EReal) = a := rfl

end Cert.LibHostLine

end
-- ==== Proof.KernelFound.lean ====
/-
  The arrays the call finds are values the reference computes too.

  Before the call the program gathers, for every batch row and each of the 26 fields, a row of the second embedding
  table (an array 16384 × 26 × 16) and an entry of the first (summed over the fields to a column 16384 × 1), lays the
  gathered rows out 416 wide beside the 13 dense features (16384 × 429), and changes the float format of that layout
  and of the four weight matrices.  The reference performs the same index arithmetic, the same two gathers, the same
  sum, reshape and concatenation, in the same order; and at the exact values a change of float format is the identity.
  So each array the call reads is, as a function of the program's arguments, the reference's corresponding value.
-/
import proofs.«147846_j2156073583145_2_alg».proof.Proof.WholeKernelIdeal
import proofs.«147846_j2156073583145_2_alg».proof.Proof.Gen.ReferenceIdeal.Read
import proofs.«147846_j2156073583145_2_alg».proof.Proof.LibNaryThree
import proofs.«147846_j2156073583145_2_alg».proof.Proof.LibHostLine

set_option maxRecDepth 16384

noncomputable section

namespace Cert.KernelIdeal.Found

open Cert.KernelIdeal Cert.KernelIdeal.Gen Cert.KernelIdeal.Whole
open Idealize.ShloMosaic Idealize.ShloMosaic.TcCoe Idealize.ShloMosaic.StableHlo Idealize.SL.Sem
open Cert.LibNaryThree Cert.LibHostLine

variable (m : (ℓ : Loc nD τ sig) → Buf (Elt Ideal) ℓ)

/-- The gathered rows of the second embedding table. -/
theorem embeddings (c : Dev nD) :
    (V m c main_v36 : S16384x26x16.Idx → EReal) = Cert.ReferenceIdeal.Read.val_main_v38 (F := Ideal) (m ((c : Thread nD τ).loc main_arg0)) (m ((c : Thread nD τ).loc main_arg3)) := by
  dsimp only [V]
  simp only [hostOps0, List.flatten_cons, List.flatten_nil, List.append_nil, List.cons_append, List.nil_append]
  after_results3
  rfl

/-! ### The 429-wide layout

The host operations are the first 47 of them followed by the last seven: the reshape of the gathered rows, the
concatenation with the dense features, and the five changes of float format.  What the last seven do to ANY
contents of the buffers is read off directly; the gathered rows they start from were identified above. -/

/-- The last seven host operations. -/
abbrev lastOps {F : FTy → Type} [FloatOps F] : List (HloOp τ sig (Elt F)) :=
  [ StableHlo.reshape main_v36 main_v37 rfl shapeCasts_S16384x26x16_S16384x416,
    StableHlo.binary main_v37 main_arg1 main_v38 ((fun a b => concatenate S16384x429 1 [⟨S16384x416, a⟩, ⟨S16384x13, b⟩] concatenates_S16384x416_S16384x13_S16384x429_d1) : (⟨S16384x416, .f32⟩ : BufTy).Contents (Elt F) → (⟨S16384x13, .f32⟩ : BufTy).Contents (Elt F) → (⟨S16384x429, .f32⟩ : BufTy).Contents (Elt F)),
    StableHlo.unary main_v38 main_v39 ((truncf .bf16 · bitsLt_bf16_f32) : (⟨S16384x429, .f32⟩ : BufTy).Contents (Elt F) → (⟨S16384x429, .bf16⟩ : BufTy).Contents (Elt F)),
    StableHlo.unary main_arg6 main_v40 ((truncf .bf16 · bitsLt_bf16_f32) : (⟨S429x400, .f32⟩ : BufTy).Contents (Elt F) → (⟨S429x400, .bf16⟩ : BufTy).Contents (Elt F)),
    StableHlo.unary main_arg8 main_v41 ((truncf .bf16 · bitsLt_bf16_f32) : (⟨S400x400, .f32⟩ : BufTy).Contents (Elt F) → (⟨S400x400, .bf16⟩ : BufTy).Contents (Elt F)),
    StableHlo.unary main_arg10 main_v42 ((truncf .bf16 · bitsLt_bf16_f32) : (⟨S400x400, .f32⟩ : BufTy).Contents (Elt F) → (⟨S400x400, .bf16⟩ : BufTy).Contents (Elt F)),
    StableHlo.unary main_arg12 main_v43 ((truncf .bf16 · bitsLt_bf16_f32) : (⟨S400x1, .f32⟩ : BufTy).Contents (Elt F) → (⟨S400x1, .bf16⟩ : BufTy).Contents (Elt F)) ]

theorem hostOps0_split : (hostOps0 : List (HloOp τ sig (Elt Ideal))) = hostOps0.take 47 ++ lastOps := by
  rw [show (lastOps : List (HloOp τ sig (Elt Ideal))) = hostOps0.drop 47 from rfl]
  exact (List.take_append_drop 47 _).symm

/-- The buffers of core `c` after the first 47 host operations. -/
def before7 (c : Dev nD) : Valuation τ sig (Elt Ideal) := after (hostOps0.take 47) (fun b => m (c, b))

/-- The buffers the call finds are those, after the last seven. -/
theorem V_eq (c : Dev nD) (b : Ref sig .tc) : V m c b = after lastOps (before7 m c) (Proc.devRef .tc b) := by
  show after (List.flatten [(hostOps0 : List (HloOp τ sig (Elt Ideal)))]) (fun b => m (c, b)) (Proc.devRef .tc b) = _
  rw [show List.flatten [(hostOps0 : List (HloOp τ sig (Elt Ideal)))] = hostOps0.take 47 ++ lastOps from by
    simp only [List.flatten_cons, List.flatten_nil, List.append_nil]; exact hostOps0_split]
  rw [after_append]
  rfl

/-- The last seven operations leave the gathered rows and the dense features as they were, -/
theorem last_keeps_rows (F : Valuation τ sig (Elt Ideal)) :
    after lastOps F (Proc.devRef .tc main_v36) = F (Proc.devRef .tc main_v36) := by
  simp only [lastOps, after_cons, after_nil]
  results_loop
  rw [StableHlo.reshape_result_ne (x := main_v36) (y := main_v37) (r := main_v36) _ _ _ _ _ (by decide)]
theorem last_keeps_dense (F : Valuation τ sig (Elt Ideal)) :
    after lastOps F (Proc.devRef .tc main_arg1) = F (Proc.devRef .tc main_arg1) := by
  simp only [lastOps, after_cons, after_nil]
  results_loop
  rw [StableHlo.reshape_result_ne (x := main_v36) (y := main_v37) (r := main_arg1) _ _ _ _ _ (by decide)]

/-- and put in the layout's buffer the rows reshaped, beside the dense features, in the narrower format. -/
theorem last_at_layout (F : Valuation τ sig (Elt Ideal)) :
    after lastOps F (Proc.devRef .tc main_v39)
      = truncf (F := Ideal) .bf16 (concatenate S16384x429 1
          [⟨S16384x416, shapeCast S16384x416 (F (Proc.devRef .tc main_v36)) shapeCasts_S16384x26x16_S16384x416⟩,
           ⟨S16384x13, F (Proc.devRef .tc main_arg1)⟩] concatenates_S16384x416_S16384x13_S16384x429_d1) bitsLt_bf16_f32 := by
  simp only [lastOps, after_cons, after_nil]
  results_loop
  rw [StableHlo.reshape_result main_v36 main_v37,
    StableHlo.reshape_result_ne (x := main_v36) (y := main_v37) (r := main_arg1) _ _ _ _ _ (by decide)]
  rfl

/-- The 429-wide layout the call finds is the reference's: the same reshape and concatenation of the same gathered
    rows, and the change of format is the identity. -/
theorem layout (c : Dev nD) :
    (V m c main_v39 : S16384x429.Idx → EReal) = Cert.ReferenceIdeal.Read.val_main_v50 (F := Ideal) (m ((c : Thread nD τ).loc main_arg0)) (m ((c : Thread nD τ).loc main_arg1)) (m ((c : Thread nD τ).loc main_arg3)) := by
  have h36 : before7 m c (Proc.devRef .tc main_v36) = Cert.ReferenceIdeal.Read.val_main_v38 (F := Ideal) (m ((c : Thread nD τ).loc main_arg0)) (m ((c : Thread nD τ).loc main_arg3)) :=
    ((last_keeps_rows (before7 m c)).symm.trans (V_eq m c main_v36).symm).trans (embeddings m c)
  have h1 : before7 m c (Proc.devRef .tc main_arg1) = (m ((c : Thread nD τ).loc main_arg1)) :=
    ((last_keeps_dense (before7 m c)).symm.trans (V_eq m c main_arg1).symm).trans (V_main_arg1 m c)
  refine ((V_eq m c main_v39).trans (last_at_layout (before7 m c))).trans ?_
  rw [h36, h1]
  refine (format_change_id (ψ := .bf16) (φ := .f32) _ bitsLt_bf16_f32).trans ?_
  rfl

/-- The first-order sums, as a column. -/
theorem firstOrder (c : Dev nD) :
    (V m c main_v21 : S16384x1.Idx → EReal) = Cert.ReferenceIdeal.Read.val_main_v21 (F := Ideal) (m ((c : Thread nD τ).loc main_arg0)) (m ((c : Thread nD τ).loc main_arg2)) := by
  dsimp only [V]
  simp only [hostOps0, List.flatten_cons, List.flatten_nil, List.append_nil, List.cons_append, List.nil_append]
  after_results3
  rfl

/-- The four weight matrices after their change of format are the arguments themselves. -/
theorem weight0 (c : Dev nD) : (V m c main_v40 : S429x400.Idx → EReal) = (m ((c : Thread nD τ).loc main_arg6)) := by
  dsimp only [V]
  simp only [hostOps0, List.flatten_cons, List.flatten_nil, List.append_nil, List.cons_append, List.nil_append]
  after_results3
  rfl
theorem weight1 (c : Dev nD) : (V m c main_v41 : S400x400.Idx → EReal) = (m ((c : Thread nD τ).loc main_arg8)) := by
  dsimp only [V]
  simp only [hostOps0, List.flatten_cons, List.flatten_nil, List.append_nil, List.cons_append, List.nil_append]
  after_results3
  rfl
theorem weight2 (c : Dev nD) : (V m c main_v42 : S400x400.Idx → EReal) = (m ((c : Thread nD τ).loc main_arg10)) := by
  dsimp only [V]
  simp only [hostOps0, List.flatten_cons, List.flatten_nil, List.append_nil, List.cons_append, List.nil_append]
  after_results3
  rfl
theorem weightLast (c : Dev nD) : (V m c main_v43 : S400x1.Idx → EReal) = (m ((c : Thread nD τ).loc main_arg12)) := by
  dsimp only [V]
  simp only [hostOps0, List.flatten_cons, List.flatten_nil, List.append_nil, List.cons_append, List.nil_append]
  after_results3
  rfl

end Cert.KernelIdeal.Found

end
-- ==== Proof.RefRow.lean ====
import proofs.«147846_j2156073583145_2_alg».proof.Proof.Gen.ReferenceIdeal.Read
import proofs.«147846_j2156073583145_2_alg».proof.Proof.Spec
import Idealize.ShloMosaic.PureOps.Ideal.Laws
import Idealize.ShloMosaic.Lib.ValueIdx

noncomputable section

namespace Cert.ReferenceIdeal.RowValue

open Cert.ReferenceIdeal Cert.ReferenceIdeal.Read Idealize.ShloMosaic Idealize.ShloMosaic.ValueIdx
open scoped BigOperators

/-!
  The reference program's result, read one batch row at a time, is the shared specification `Cert.FmDnn.G`.

  The read-back of the reference gives every operation's value at an index in terms of its operands at composed index
  functions.  Each lemma below fixes a row `R` (and a column), rewrites along that read-back down to the three
  values that stay opaque (the gathered embeddings, the 429-wide concatenation and the first-order sums), identifies
  the composed index functions with the coordinate constructors, and removes the zero initial value of each sum and
  the zero splat of each positive part.  No sum is regrouped: the reference adds and multiplies in exactly the order
  the specification is written in.
-/

/-! ### Index equations: the read-back's composed index functions are the coordinate constructors -/

theorem idx39 (R : Fin 16384) (e : Fin 16) (k : Fin 26) : idx_main_v39 (ix2 R e) k = ix3 R k e :=
  funext fun a => match a with | ⟨0, _⟩ => rfl | ⟨1, _⟩ => rfl | ⟨2, _⟩ => rfl

theorem idx42 (R : Fin 16384) (e : Fin 16) (k : Fin 26) : idx_main_v42 (ix2 R e) k = ix3 R k e :=
  funext fun a => match a with | ⟨0, _⟩ => rfl | ⟨1, _⟩ => rfl | ⟨2, _⟩ => rfl

theorem idx44 (R : Fin 16384) (u : Fin 1) (k : Fin 16) : idx_main_v44 (idx_main_v45 (ix2 R u)) k = ix2 R k :=
  funext fun a => match a with | ⟨0, _⟩ => rfl | ⟨1, _⟩ => rfl

theorem lidx22 (R : Fin 16384) (u : Fin 1) (k : Fin 13) : lidx_main_v22 (ix2 R u) k = ix2 R k :=
  funext fun a => match a with | ⟨0, _⟩ => rfl | ⟨1, _⟩ => rfl

theorem ridx22 (R : Fin 16384) (u : Fin 1) (k : Fin 13) : ridx_main_v22 (ix2 R u) k = ix2 k u :=
  funext fun a => match a with | ⟨0, _⟩ => rfl | ⟨1, _⟩ => rfl

theorem lidx51 (R : Fin 16384) (j : Fin 400) (k : Fin 429) : lidx_main_v51 (ix2 R j) k = ix2 R k :=
  funext fun a => match a with | ⟨0, _⟩ => rfl | ⟨1, _⟩ => rfl

theorem ridx51 (R : Fin 16384) (j : Fin 400) (k : Fin 429) : ridx_main_v51 (ix2 R j) k = ix2 k j :=
  funext fun a => match a with | ⟨0, _⟩ => rfl | ⟨1, _⟩ => rfl

theorem idx52 (R : Fin 16384) (j : Fin 400) : idx_main_v52 (idx_main_v53 (ix2 R j)) = ix1 j :=
  funext fun a => match a with | ⟨0, _⟩ => rfl

theorem lidx56 (R : Fin 16384) (j : Fin 400) (k : Fin 400) : lidx_main_v56 (ix2 R j) k = ix2 R k :=
  funext fun a => match a with | ⟨0, _⟩ => rfl | ⟨1, _⟩ => rfl

theorem ridx56 (R : Fin 16384) (j : Fin 400) (k : Fin 400) : ridx_main_v56 (ix2 R j) k = ix2 k j :=
  funext fun a => match a with | ⟨0, _⟩ => rfl | ⟨1, _⟩ => rfl

theorem idx57 (R : Fin 16384) (j : Fin 400) : idx_main_v57 (idx_main_v58 (ix2 R j)) = ix1 j :=
  funext fun a => match a with | ⟨0, _⟩ => rfl

theorem lidx61 (R : Fin 16384) (j : Fin 400) (k : Fin 400) : lidx_main_v61 (ix2 R j) k = ix2 R k :=
  funext fun a => match a with | ⟨0, _⟩ => rfl | ⟨1, _⟩ => rfl

theorem ridx61 (R : Fin 16384) (j : Fin 400) (k : Fin 400) : ridx_main_v61 (ix2 R j) k = ix2 k j :=
  funext fun a => match a with | ⟨0, _⟩ => rfl | ⟨1, _⟩ => rfl

theorem idx62 (R : Fin 16384) (j : Fin 400) : idx_main_v62 (idx_main_v63 (ix2 R j)) = ix1 j :=
  funext fun a => match a with | ⟨0, _⟩ => rfl

theorem lidx66 (R : Fin 16384) (u : Fin 1) (k : Fin 400) : lidx_main_v66 (ix2 R u) k = ix2 R k :=
  funext fun a => match a with | ⟨0, _⟩ => rfl | ⟨1, _⟩ => rfl

theorem ridx66 (R : Fin 16384) (u : Fin 1) (k : Fin 400) : ridx_main_v66 (ix2 R u) k = ix2 k u :=
  funext fun a => match a with | ⟨0, _⟩ => rfl | ⟨1, _⟩ => rfl

theorem idx68 (R : Fin 16384) (u : Fin 1) : idx_main_v68 (idx_main_v69 (ix2 R u)) = ix1 (0 : Fin 1) :=
  funext fun a => match a with | ⟨0, _⟩ => rfl

/-! ### The single-precision word of one -/

/-- The word `0x3F800000` is the real number one. -/
theorem one_f32 : Ideal.ofBits .f32 0x3F800000#32 = 1 := by
  simp [Ideal.ofBits, Ideal.ieee, -EReal.coe_mul]; norm_num

/-! ### The second-order term -/

/-- The sum over the 26 embedding vectors of coordinate `e` of row `R`. -/
theorem v39_row (x0 : (⟨S16384x26, .i32⟩ : BufTy).Contents (Elt Ideal)) (x3 : (⟨S26x100000x16, .f32⟩ : BufTy).Contents (Elt Ideal)) (R : Fin 16384) (e : Fin 16) :
    val_main_v39 (F := Ideal) x0 x3 (ix2 R e) = ∑ f : Fin 26, val_main_v38 (F := Ideal) x0 x3 (ix3 R f e) := by
  rw [val_main_v39_apply, val_main_cst_8_apply, Ideal.ofBits_def, Ideal.ofBits_zero_f32, zero_add]
  simp only [idx39]

/-- The sum over the 26 embedding vectors of the squares of coordinate `e` of row `R`. -/
theorem v42_row (x0 : (⟨S16384x26, .i32⟩ : BufTy).Contents (Elt Ideal)) (x3 : (⟨S26x100000x16, .f32⟩ : BufTy).Contents (Elt Ideal)) (R : Fin 16384) (e : Fin 16) :
    val_main_v42 (F := Ideal) x0 x3 (ix2 R e)
      = ∑ f : Fin 26, val_main_v38 (F := Ideal) x0 x3 (ix3 R f e) * val_main_v38 (F := Ideal) x0 x3 (ix3 R f e) := by
  rw [val_main_v42_apply, val_main_cst_9_apply, Ideal.ofBits_def, Ideal.ofBits_zero_f32, zero_add]
  simp only [idx42, val_main_v41_apply, Ideal.mulf_def]

/-- One half times, summed over the 16 coordinates, the square of the sum minus the sum of the squares. -/
theorem cross_row (x0 : (⟨S16384x26, .i32⟩ : BufTy).Contents (Elt Ideal)) (x3 : (⟨S26x100000x16, .f32⟩ : BufTy).Contents (Elt Ideal)) (R : Fin 16384) (u : Fin 1) :
    val_main_v47 (F := Ideal) x0 x3 (ix2 R u)
      = Cert.FmDnn.cross (fun f e => val_main_v38 (F := Ideal) x0 x3 (ix3 R f e)) := by
  rw [val_main_v47_apply, val_main_v46_apply, val_main_cst_11_apply, val_main_v45_apply, val_main_v44_apply,
    val_main_cst_10_apply]
  simp only [Ideal.ofBits_def, Ideal.ofBits_zero_f32, zero_add, Ideal.mulf_def, idx44, val_main_v43_apply,
    val_main_v40_apply, Ideal.subf_def, v39_row, v42_row]
  rfl

/-! ### The dense features' weighted sum -/

theorem dense_row (x1 : (⟨S16384x13, .f32⟩ : BufTy).Contents (Elt Ideal)) (x4 : (⟨S13x1, .f32⟩ : BufTy).Contents (Elt Ideal)) (R : Fin 16384) (u : Fin 1) :
    val_main_v22 (F := Ideal) x1 x4 (ix2 R u) = ∑ d : Fin 13, x1 (ix2 R d) * x4 (ix2 d u) := by
  rw [val_main_v22_apply]
  simp only [lidx22, ridx22]

/-! ### The three dense layers, each followed by the positive part -/

theorem h1_row (x0 : (⟨S16384x26, .i32⟩ : BufTy).Contents (Elt Ideal)) (x1 : (⟨S16384x13, .f32⟩ : BufTy).Contents (Elt Ideal)) (x3 : (⟨S26x100000x16, .f32⟩ : BufTy).Contents (Elt Ideal)) (x6 : (⟨S429x400, .f32⟩ : BufTy).Contents (Elt Ideal)) (x7 : (⟨S400, .f32⟩ : BufTy).Contents (Elt Ideal)) (R : Fin 16384) (j : Fin 400) :
    val_main_v55 (F := Ideal) x0 x1 x3 x6 x7 (ix2 R j)
      = Cert.FmDnn.layer (fun k => val_main_v50 (F := Ideal) x0 x1 x3 (ix2 R k)) (fun k j => x6 (ix2 k j)) (fun j => x7 (ix1 j)) j := by
  rw [val_main_v55_apply, val_main_call0_v0_apply, val_main_call0_cst_apply, val_main_v54_apply, val_main_v53_apply,
    val_main_v52_apply, val_main_v51_apply]
  simp only [Ideal.ofBits_def, Ideal.ofBits_zero_f32, Ideal.maximumf_def, Ideal.addf_def, lidx51, ridx51, idx52]
  rfl

theorem h2_row (x0 : (⟨S16384x26, .i32⟩ : BufTy).Contents (Elt Ideal)) (x1 : (⟨S16384x13, .f32⟩ : BufTy).Contents (Elt Ideal)) (x3 : (⟨S26x100000x16, .f32⟩ : BufTy).Contents (Elt Ideal)) (x6 : (⟨S429x400, .f32⟩ : BufTy).Contents (Elt Ideal)) (x7 : (⟨S400, .f32⟩ : BufTy).Contents (Elt Ideal)) (x8 : (⟨S400x400, .f32⟩ : BufTy).Contents (Elt Ideal)) (x9 : (⟨S400, .f32⟩ : BufTy).Contents (Elt Ideal)) (R : Fin 16384) (j : Fin 400) :
    val_main_v60 (F := Ideal) x0 x1 x3 x6 x7 x8 x9 (ix2 R j)
      = Cert.FmDnn.layer (Cert.FmDnn.layer (fun k => val_main_v50 (F := Ideal) x0 x1 x3 (ix2 R k)) (fun k j => x6 (ix2 k j)) (fun j => x7 (ix1 j))) (fun k j => x8 (ix2 k j)) (fun j => x9 (ix1 j)) j := by
  rw [val_main_v60_apply, val_main_call1_v0_apply, val_main_call1_cst_apply, val_main_v59_apply, val_main_v58_apply,
    val_main_v57_apply, val_main_v56_apply]
  simp only [Ideal.ofBits_def, Ideal.ofBits_zero_f32, Ideal.maximumf_def, Ideal.addf_def, lidx56, ridx56, idx57, h1_row]
  rfl

theorem h3_row (x0 : (⟨S16384x26, .i32⟩ : BufTy).Contents (Elt Ideal)) (x1 : (⟨S16384x13, .f32⟩ : BufTy).Contents (Elt Ideal)) (x3 : (⟨S26x100000x16, .f32⟩ : BufTy).Contents (Elt Ideal)) (x6 : (⟨S429x400, .f32⟩ : BufTy).Contents (Elt Ideal)) (x7 : (⟨S400, .f32⟩ : BufTy).Contents (Elt Ideal)) (x8 : (⟨S400x400, .f32⟩ : BufTy).Contents (Elt Ideal)) (x9 : (⟨S400, .f32⟩ : BufTy).Contents (Elt Ideal)) (x10 : (⟨S400x400, .f32⟩ : BufTy).Contents (Elt Ideal)) (x11 : (⟨S400, .f32⟩ : BufTy).Contents (Elt Ideal)) (R : Fin 16384) (j : Fin 400) :
    val_main_v65 (F := Ideal) x0 x1 x3 x6 x7 x8 x9 x10 x11 (ix2 R j)
      = Cert.FmDnn.layer (Cert.FmDnn.layer (Cert.FmDnn.layer (fun k => val_main_v50 (F := Ideal) x0 x1 x3 (ix2 R k)) (fun k j => x6 (ix2 k j)) (fun j => x7 (ix1 j))) (fun k j => x8 (ix2 k j)) (fun j => x9 (ix1 j))) (fun k j => x10 (ix2 k j)) (fun j => x11 (ix1 j)) j := by
  rw [val_main_v65_apply, val_main_call2_v0_apply, val_main_call2_cst_apply, val_main_v64_apply, val_main_v63_apply,
    val_main_v62_apply, val_main_v61_apply]
  simp only [Ideal.ofBits_def, Ideal.ofBits_zero_f32, Ideal.maximumf_def, Ideal.addf_def, lidx61, ridx61, idx62, h2_row]
  rfl

/-- The last layer's output weighted by the final column of weights. -/
theorem deep_row (x0 : (⟨S16384x26, .i32⟩ : BufTy).Contents (Elt Ideal)) (x1 : (⟨S16384x13, .f32⟩ : BufTy).Contents (Elt Ideal)) (x3 : (⟨S26x100000x16, .f32⟩ : BufTy).Contents (Elt Ideal)) (x6 : (⟨S429x400, .f32⟩ : BufTy).Contents (Elt Ideal)) (x7 : (⟨S400, .f32⟩ : BufTy).Contents (Elt Ideal)) (x8 : (⟨S400x400, .f32⟩ : BufTy).Contents (Elt Ideal)) (x9 : (⟨S400, .f32⟩ : BufTy).Contents (Elt Ideal)) (x10 : (⟨S400x400, .f32⟩ : BufTy).Contents (Elt Ideal)) (x11 : (⟨S400, .f32⟩ : BufTy).Contents (Elt Ideal)) (x12 : (⟨S400x1, .f32⟩ : BufTy).Contents (Elt Ideal)) (R : Fin 16384) (u : Fin 1) :
    val_main_v66 (F := Ideal) x0 x1 x3 x6 x7 x8 x9 x10 x11 x12 (ix2 R u)
      = ∑ k : Fin 400, Cert.FmDnn.layer (Cert.FmDnn.layer (Cert.FmDnn.layer (fun k => val_main_v50 (F := Ideal) x0 x1 x3 (ix2 R k)) (fun k j => x6 (ix2 k j)) (fun j => x7 (ix1 j))) (fun k j => x8 (ix2 k j)) (fun j => x9 (ix1 j))) (fun k j => x10 (ix2 k j)) (fun j => x11 (ix1 j)) k * x12 (ix2 k u) := by
  rw [val_main_v66_apply]
  simp only [lidx66, ridx66, h3_row]

/-! ### The bias -/

theorem bias_row (x5 : (⟨S1, .f32⟩ : BufTy).Contents (Elt Ideal)) (R : Fin 16384) (u : Fin 1) :
    val_main_v69 (F := Ideal) x5 (ix2 R u) = x5 (ix1 (0 : Fin 1)) := by
  rw [val_main_v69_apply, val_main_v68_apply, idx68]

/-! ### The result -/

/-- The reference program's result is the specification at its three opaque values and its arguments. -/
theorem result_is_spec (x0 : (⟨S16384x26, .i32⟩ : BufTy).Contents (Elt Ideal)) (x1 : (⟨S16384x13, .f32⟩ : BufTy).Contents (Elt Ideal)) (x2 : (⟨S26x100000x1, .f32⟩ : BufTy).Contents (Elt Ideal)) (x3 : (⟨S26x100000x16, .f32⟩ : BufTy).Contents (Elt Ideal)) (x4 : (⟨S13x1, .f32⟩ : BufTy).Contents (Elt Ideal)) (x5 : (⟨S1, .f32⟩ : BufTy).Contents (Elt Ideal)) (x6 : (⟨S429x400, .f32⟩ : BufTy).Contents (Elt Ideal)) (x7 : (⟨S400, .f32⟩ : BufTy).Contents (Elt Ideal)) (x8 : (⟨S400x400, .f32⟩ : BufTy).Contents (Elt Ideal)) (x9 : (⟨S400, .f32⟩ : BufTy).Contents (Elt Ideal)) (x10 : (⟨S400x400, .f32⟩ : BufTy).Contents (Elt Ideal)) (x11 : (⟨S400, .f32⟩ : BufTy).Contents (Elt Ideal)) (x12 : (⟨S400x1, .f32⟩ : BufTy).Contents (Elt Ideal)) :
    val_main_v76 (F := Ideal) x0 x1 x2 x3 x4 x5 x6 x7 x8 x9 x10 x11 x12
      = Cert.FmDnn.G (val_main_v38 (F := Ideal) x0 x3) (val_main_v50 (F := Ideal) x0 x1 x3) (val_main_v21 (F := Ideal) x0 x2)
          x1 x4 x5 x6 x7 x8 x9 x10 x11 x12 := by
  funext i
  obtain ⟨R, u, rfl⟩ : ∃ (R : Fin 16384) (u : Fin 1), i = ix2 R u := ⟨i 0, i 1, eq_ix2 i⟩
  obtain rfl : u = 0 := Subsingleton.elim _ _
  rw [val_main_v76_apply, val_main_v75_apply, val_main_cst_13_apply, val_main_v74_apply, val_main_v73_apply,
    val_main_cst_12_apply, val_main_v72_apply, val_main_v71_apply, val_main_v70_apply, val_main_v67_apply,
    val_main_v48_apply, val_main_v23_apply, cross_row, dense_row, deep_row, bias_row]
  simp only [Ideal.ofBits_def, one_f32, Ideal.hostDivf_def, Ideal.hostUnary_exp_def, Ideal.hostNegf_def,
    Ideal.negf_def, Ideal.addf_def]
  rfl

end Cert.ReferenceIdeal.RowValue

end
-- ==== Proof.lean ====
/-
  The kernel computes, for each of 16384 batch rows, a score from the row's 26 embedding vectors, its 13 dense
  features and a small network: the logistic function of the sum of a first-order term, a weighted sum of the dense
  features, half the sum over coordinates of (square of the sum of the embeddings minus the sum of their squares), the
  output of three dense layers with positive parts, and a bias.  The jnp reference computes the same score.

  Both programs begin with the same host operations (index arithmetic, two gathers, a row sum, a reshape and a
  concatenation).  The kernel then cuts the batch into 16 blocks of 1024 rows and scores each block on the vector and
  matrix units; the reference scores all rows at once with whole-array operations.  At the exact values a change of
  float format is the identity, a matrix-unit product into a zero accumulator and the host's dot product are the same
  finite sum, a lane reduction and the host's reduction are the same finite sum, and the logistic operation is the
  quotient 1 / (1 + exp (-x)) the reference spells out.  Every sum and product is grouped the same way on both sides,
  so the two results are equal as extended reals at every row whatever the inputs hold; the precondition is not used.

  The three frames: the two kernel programs run by the launch theorem applied to the body's triple (one module per
  program, the same text at the two instances); the reference is a line of host operations.  The idealization rewrote
  nothing, so there is nothing to preserve.
-/
import proofs.«147846_j2156073583145_2_alg».proof.Defs
import proofs.«147846_j2156073583145_2_alg».proof.Proof.Gen.Kernel
import proofs.«147846_j2156073583145_2_alg».proof.Proof.Gen.KernelIdeal
import proofs.«147846_j2156073583145_2_alg».proof.Proof.Gen.ReferenceIdeal
import proofs.«147846_j2156073583145_2_alg».proof.Proof.Gen.Pre_finite_inputs
import proofs.«147846_j2156073583145_2_alg».proof.Proof.Gen.ReferenceIdeal.Run
import proofs.«147846_j2156073583145_2_alg».proof.Proof.Gen.ReferenceIdeal.Read
import proofs.«147846_j2156073583145_2_alg».proof.Proof.WholeKernel
import proofs.«147846_j2156073583145_2_alg».proof.Proof.WholeKernelIdeal
import proofs.«147846_j2156073583145_2_alg».proof.Proof.KernelValue
import proofs.«147846_j2156073583145_2_alg».proof.Proof.KernelFound
import proofs.«147846_j2156073583145_2_alg».proof.Proof.RefRow

noncomputable section

namespace Cert.Proof

open Idealize.ShloMosaic Idealize.ShloMosaic.TcCoe Idealize.SL.Sem

theorem frame_kernel : Cert.frame_Kernel := fun m ρ _ => Cert.Kernel.Whole.frame m ρ

theorem frame_kernelIdeal : Cert.frame_KernelIdeal := fun m ρ _ => Cert.KernelIdeal.Whole.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Whole

/-- The scores the kernel leaves, written over the reference's own intermediate values: each array the call finds is
    one of them, or an argument. -/
theorem scores_eq (m : (ℓ : Loc nD τ sig) → Buf (Elt Ideal) ℓ) (c : Dev nD) :
    Cert.KernelIdeal.Scores.scores m c
      = Cert.FmDnn.G (Cert.ReferenceIdeal.Read.val_main_v38 (F := Ideal) (m ((c.tc : Thread nD τ).loc main_arg0)) (m ((c.tc : Thread nD τ).loc main_arg3)))
          (Cert.ReferenceIdeal.Read.val_main_v50 (F := Ideal) (m ((c.tc : Thread nD τ).loc main_arg0)) (m ((c.tc : Thread nD τ).loc main_arg1)) (m ((c.tc : Thread nD τ).loc main_arg3)))
          (Cert.ReferenceIdeal.Read.val_main_v21 (F := Ideal) (m ((c.tc : Thread nD τ).loc main_arg0)) (m ((c.tc : Thread nD τ).loc main_arg2)))
          (m ((c.tc : Thread nD τ).loc main_arg1)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.KernelIdeal.Scores.scores
  rw [Cert.KernelIdeal.Found.embeddings m c, Cert.KernelIdeal.Found.layout m c, Cert.KernelIdeal.Found.firstOrder m c,
    Cert.KernelIdeal.Found.weight0 m c, Cert.KernelIdeal.Found.weight1 m c, Cert.KernelIdeal.Found.weight2 m c,
    Cert.KernelIdeal.Found.weightLast m c, V_main_arg1 m c, V_main_arg4 m c, V_main_arg5 m c, V_main_arg7 m c,
    V_main_arg9 m c, V_main_arg11 m c]
end

/-- From memories agreeing on the arguments both programs end with the scores. -/
theorem algebraic : Cert.algebraic_KernelIdeal_ReferenceIdeal := by
  intro m ρ m' ρ' _ hagree
  refine ⟨fun c => Cert.KernelIdeal.Scores.scores m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v76_eq, h0, h1, h2, h3, h4, h5, h6, h7, h8, h9, h10, h11, h12]
  exact (Cert.ReferenceIdeal.RowValue.result_is_spec _ _ _ _ _ _ _ _ _ _ _ _ _).trans (scores_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
